-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x4096 .f32) (main_arg1 : FVec F S16384x4096 .f32) (main_arg2 : FVec F S16384 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x4096 : Shape := ⟨2, ![4096, 4096]⟩
abbrev S16384x4096 : Shape := ⟨2, ![16384, 4096]⟩
abbrev S16384 : Shape := ⟨1, ![16384]⟩
abbrev S1x16384 : Shape := ⟨2, ![1, 16384]⟩
abbrev S4096x16384 : Shape := ⟨2, ![4096, 16384]⟩
abbrev S2048x1024 : Shape := ⟨2, ![2048, 1024]⟩
abbrev S1024x1024 : Shape := ⟨2, ![1024, 1024]⟩
abbrev S1x1024 : Shape := ⟨2, ![1, 1024]⟩
abbrev S2048x32 : Shape := ⟨2, ![2048, 32]⟩
abbrev S1024x32 : Shape := ⟨2, ![1024, 32]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S1x16384, .f32⟩
  | .hbm, ⟨4, _⟩ => ⟨S4096x16384, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .ne arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S2048x1024_S2048x32_0_0 : ∀ a, (![0, 0] : Fin 2 → Nat) a + S2048x32.size a ≤ S2048x1024.size a
  h_S2048x32 : 0 < S2048x32.numel
  inb_S1024x1024_S1024x32_0_0 : ∀ a, (![0, 0] : Fin 2 → Nat) a + S1024x32.size a ≤ S1024x1024.size a
  h_S1024x32 : 0 < S1024x32.numel
  shapeCasts_S2048x1024_S2048x1024 : S2048x1024.ShapeCasts S2048x1024
  iota_S2048x1024_d1_w32 : S2048x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x32_S1024x32_S2048x1024_1_1_0_0_n_n_wf : DotDims.WF S2048x32 S1024x32 S2048x1024 [1] [1] [0] [0] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .f32 = 32 ∨ (Rect.block (s := S4096x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .f32 = 32 ∨ (Rect.block (s := S16384x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x16384.size a
  hwx0_3 : ∀ i : grid0.Coords, EltTy.bits .f32 = 32 ∨ (Rect.block (s := S4096x16384) S2048x1024.size (cc0_transform_3 i) (hinb0_3 i)).WholeWords (EltTy.packing .f32)

variable [Facts₀]

def dot_S2048x32_S1024x32_S2048x1024_1_1_0_0_n_n : DotDims S2048x32 S1024x32 S2048x1024 where
  lhsContracting := [1]
  rhsContracting := [1]
  lhsNonContracting := [0]
  rhsNonContracting := [0]
  lhsBatch := []
  rhsBatch := []
  wf := dot_S2048x32_S1024x32_S2048x1024_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S4096x32 : Shape := ⟨2, ![4096, 32]⟩
abbrev S16384x32 : Shape := ⟨2, ![16384, 32]⟩
abbrev S4096x16384 : Shape := ⟨2, ![4096, 16384]⟩
abbrev S_ : Shape := ⟨0, ![]⟩
abbrev S4096x4064 : Shape := ⟨2, ![4096, 4064]⟩
abbrev S16384x4064 : Shape := ⟨2, ![16384, 4064]⟩
abbrev S1x16384 : Shape := ⟨2, ![1, 16384]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S4096x32, .f32⟩
  | .hbm, ⟨4, _⟩ => ⟨S16384x32, .f32⟩
  | .hbm, ⟨5, _⟩ => ⟨S4096x16384, .f32⟩
  | .hbm, ⟨6, _⟩ => ⟨S4096x32, .f32⟩
  | .hbm, ⟨7, _⟩ => ⟨S16384x32, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S_, .f32⟩
  | .hbm, ⟨27, _⟩ => ⟨S4096x16384, .f32⟩
  | .hbm, ⟨28, _⟩ => ⟨S4096x16384, .f32⟩
  | .hbm, ⟨29, _⟩ => ⟨S_, .f32⟩
  | .hbm, ⟨30, _⟩ => ⟨S4096x16384, .f32⟩
  | .hbm, ⟨31, _⟩ => ⟨S4096x16384, .f32⟩
  | .hbm, ⟨32, _⟩ => ⟨S4096x16384, .f32⟩
  | .hbm, ⟨33, _⟩ => ⟨S4096x16384, .f32⟩
  | .hbm, ⟨34, _⟩ => ⟨S_, .f32⟩
  | .hbm, ⟨35, _⟩ => ⟨S4096x16384, .f32⟩
  | .hbm, ⟨36, _⟩ => ⟨S4096x16384, .i1⟩
  | .hbm, ⟨37, _⟩ => ⟨S4096x4064, .f32⟩
  | .hbm, ⟨38, _⟩ => ⟨S16384x4064, .f32⟩
  | .hbm, ⟨39, _⟩ => ⟨S4096x16384, .f32⟩
  | .hbm, ⟨40, _⟩ => ⟨S4096x16384, .f32⟩
  | .hbm, ⟨41, _⟩ => ⟨S1x16384, .f32⟩
  | .hbm, ⟨42, _⟩ => ⟨S4096x16384, .f32⟩
  | .hbm, ⟨43, _⟩ => ⟨S4096x16384, .f32⟩
  | .hbm, ⟨44, _⟩ => ⟨S_, .f32⟩
  | .hbm, ⟨45, _⟩ => ⟨S4096x16384, .f32⟩
  | .hbm, ⟨46, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_call0_v0 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S4096x4096_S4096x32_0_0 : S4096x4096.Slices ![0, 0] S4096x32
  slices_S16384x4096_S16384x32_0_0 : S16384x4096.Slices ![0, 0] S16384x32
  bcast_S_S4096x16384 : S_.BroadcastsInDim S4096x16384 (![] : Fin 0 → Fin S4096x16384.rank)
  slices_S4096x4096_S4096x4064_0_32 : S4096x4096.Slices ![0, 32] S4096x4064
  slices_S16384x4096_S16384x4064_0_32 : S16384x4096.Slices ![0, 32] S16384x4064
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  dot_S4096x32_S16384x32_S4096x16384_1_1_0_0_n_n_wf : DotDims.WF S4096x32 S16384x32 S4096x16384 [1] [1] [0] [0] [] []
  dot_S4096x4064_S16384x4064_S4096x16384_1_1_0_0_n_n_wf : DotDims.WF S4096x4064 S16384x4064 S4096x16384 [1] [1] [0] [0] [] []

variable [Facts₀]

def dot_S4096x32_S16384x32_S4096x16384_1_1_0_0_n_n : DotDims S4096x32 S16384x32 S4096x16384 where
  lhsContracting := [1]
  rhsContracting := [1]
  lhsNonContracting := [0]
  rhsNonContracting := [0]
  lhsBatch := []
  rhsBatch := []
  wf := dot_S4096x32_S16384x32_S4096x16384_1_1_0_0_n_n_wf
def dot_S4096x4064_S16384x4064_S4096x16384_1_1_0_0_n_n : DotDims S4096x4064 S16384x4064 S4096x16384 where
  lhsContracting := [1]
  rhsContracting := [1]
  lhsNonContracting := [0]
  rhsNonContracting := [0]
  lhsBatch := []
  rhsBatch := []
  wf := dot_S4096x4064_S16384x4064_S4096x16384_1_1_0_0_n_n_wf

class Facts : Prop extends Facts₀ where

variable [Facts]
-- ==== Proof.KernelRuns.lean ====
/-
  The kernel body run once per control case, on any whole staging memrefs.

  The grid is (i, j, k) with k innermost; the body's three branches read only k:
  k = 0 seeds the accumulator block and stores the mask, k ≠ 0 adds a K-block's product into the
  accumulator, and k = 3 (after that addition) adds the bias row and applies the mask. So a point is in
  one of three cases: A (k = 0), B (k = 1, 2), C (k = 3). For each case the body is run from the input
  blocks at given contents, the output block and the mask scratch at given or arbitrary contents, to a
  state where the buffers it stored into hold a list of written pieces; the pieces are found by the run.
-/
import proofs.«131979_j48679159333253_2_alg».proof.Proof.Gen.Kernel.Frame
import proofs.«131979_j48679159333253_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid: they read only k = t mod 4 -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

/-- Every point stores into the output block (one of the three branches is taken at each k), and the
    inputs are never idle. -/
theorem live : ∀ (w : Fin 4) (t : Fin cfg0.N), cfg0.idle w (grid0.coords t) = false :=
  (by decide +kernel : ∀ (w : Fin 4) (t : Fin grid0.N), cfg0.idle w (grid0.coords t) = false)

/-! ## The three runs -/

set_option maxHeartbeats 4000000 in
/-- Case A, k = 0: the mask scratch and the output block are both overwritten whole. -/
noncomputable def runA (c : Dev nD) (i : grid0.Coords)
    (arg3 : Memref sig .tc .vmem S2048x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (h1 : k0_cond1 i = 1#1) (h2 : ¬k0_cond2 i = 1#1) (h3 : ¬k0_cond3 i = 1#1)
    (x0 : Vec F S2048x1024 .f32) (w0 : Vec F S1024x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare w0
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare w0
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f3, %hf3, H3⟩, ⟨%f4, %hf4, H4⟩, ⟨%d6, %f6, -, H6⟩, ⟨%d7, %f7, -, H7⟩, Hk⟩
    obtain rfl := harg3.eq_unread hf3; obtain rfl := harg4.eq_unread hf4
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H6]; · iexists _; iexact H6
    iexists _; iexact H7

set_option maxHeartbeats 4000000 in
/-- Case B, k = 1 or 2: the output block, holding the accumulator `xo`, is overwritten whole; the mask
    scratch is not touched. -/
noncomputable def runB (c : Dev nD) (i : grid0.Coords)
    (arg3 : Memref sig .tc .vmem S2048x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (h1 : ¬k0_cond1 i = 1#1) (h2 : k0_cond2 i = 1#1) (h3 : ¬k0_cond3 i = 1#1)
    (x0 : Vec F S2048x1024 .f32) (w0 : Vec F S1024x1024 .f32) (xo : Vec F S2048x1024 .f32) :
    { LO : List (View.Piece (Elt F) S2048x1024 .f32) //
      ∀ (E : Set ℕ) (K : PUnit → sProp 𝕄),
        iprop(owns (c : Thread nD τ) arg3 fullShare x0 ∗ owns (c : Thread nD τ) arg4 fullShare w0
            ∗ owns (c : Thread nD τ) arg6 fullShare xo
            ∗ (iprop(owns (c : Thread nD τ) arg3 fullShare x0 ∗ owns (c : Thread nD τ) arg4 fullShare w0
                ∗ (∃ f, arg6.view.loc (c : Thread nD τ) ↦[arg6.view.set]{fullShare} arg6.view.writes (Elt F) f LO)) -∗ K ⟨⟩))
          ⊢ wp frame (wpE (defs₀ (F := F)) Variants.none c none) E (cc0__kernel i arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f3, %hf3, H3⟩, ⟨%f4, %hf4, H4⟩, ⟨%f6, %hf6, H6⟩, Hk⟩
    obtain rfl := harg3.eq_unread hf3; obtain rfl := harg4.eq_unread hf4; obtain rfl := harg6.eq_unread hf6
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    iexists _; iexact H6

set_option maxHeartbeats 4000000 in
/-- Case C, k = 3: the accumulator `xo` takes the last K-block's product, then the bias row `b0` is added
    and the mask `xs` applied; two whole stores into the output block. -/
noncomputable def runC (c : Dev nD) (i : grid0.Coords)
    (arg3 : Memref sig .tc .vmem S2048x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (h1 : ¬k0_cond1 i = 1#1) (h2 : k0_cond2 i = 1#1) (h3 : k0_cond3 i = 1#1)
    (x0 : Vec F S2048x1024 .f32) (w0 : Vec F S1024x1024 .f32) (b0 : Vec F S1x1024 .f32) (xo : Vec F S2048x1024 .f32) (xs : Vec F S2048x1024 .f32) :
    { LO : List (View.Piece (Elt F) S2048x1024 .f32) //
      ∀ (E : Set ℕ) (K : PUnit → sProp 𝕄),
        iprop(owns (c : Thread nD τ) arg3 fullShare x0 ∗ owns (c : Thread nD τ) arg4 fullShare w0 ∗ owns (c : Thread nD τ) arg5 fullShare b0
            ∗ owns (c : Thread nD τ) arg6 fullShare xo ∗ owns (c : Thread nD τ) arg7 fullShare xs
            ∗ (iprop(owns (c : Thread nD τ) arg3 fullShare x0 ∗ owns (c : Thread nD τ) arg4 fullShare w0 ∗ owns (c : Thread nD τ) arg5 fullShare b0
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__kernel i arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.Kernel.Body

end
-- ==== Proof.KernelFrame.lean ====
/-
  The frame of the program: the proof data of its one pipeline, the body obligation and the run.

  A grid point is t = 4·(16·i + j) + k. The output block (i, j) stays in its staging buffer over the four
  points k = 0 … 3 and is written back after k = 3; the mask scratch is written at k = 0 and read at k = 3.
  So what the body leaves is stated by recursion on the point (`stateAt`): a pair (output block, mask),
  at k = 0 what case A computes from the point's input blocks, at k = 1, 2 what case B makes of the pair
  the point before left, at k = 3 what case C makes of it. The region invariant carries the mask from a
  point to the next (`Carried`): before the first point the scratch holds anything.
-/
import proofs.«131979_j48679159333253_2_alg».proof.Proof.KernelRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)
/-- The mask scratch, a whole scoped buffer of the kernel's own. -/
abbrev scM : Memref sig .tc .vmem S2048x1024 .f32 := Memref.whole cc0_scratch0
/-- A view of the output block's shape and one of the scratch, through which contents are stated. -/
abbrev VO : View sig .tc .vmem S2048x1024 .f32 := (Memref.whole cc0_stg3_0 : Memref sig .tc .vmem S2048x1024 .f32).view
abbrev VS : View sig .tc .vmem S2048x1024 .f32 := (scM : Memref sig .tc .vmem S2048x1024 .f32).view

/-- The class invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each case leaves -/

section Cases
variable (c : Dev nD) (i : grid0.Coords)
  (arg3 : Memref sig .tc .vmem S2048x1024 .f32) (harg3 : arg3.IsWhole) (arg4 : Memref sig .tc .vmem S1024x1024 .f32) (harg4 : arg4.IsWhole)
  (arg5 : Memref sig .tc .vmem S1x1024 .f32) (harg5 : arg5.IsWhole) (arg6 : Memref sig .tc .vmem S2048x1024 .f32) (harg6 : arg6.IsWhole)
  (arg7 : Memref sig .tc .vmem S2048x1024 .f32) (harg7 : arg7.IsWhole)
  (x0 : Vec F S2048x1024 .f32) (w0 : Vec F S1024x1024 .f32) (b0 : Vec F S1x1024 .f32) (xo xs : Vec F S2048x1024 .f32)

theorem coverA_O (h1 : k0_cond1 i = 1#1) (h2 : ¬k0_cond2 i = 1#1) (h3 : ¬k0_cond3 i = 1#1) (y : S2048x1024.Idx) :
    ∃ pc ∈ (runA c i arg3 harg3 arg4 harg4 arg5 harg5 arg6 harg6 arg7 harg7 h1 h2 h3 x0 w0).1, y ∈ pc.1.set :=
  View.cover_of_tiledL (runA c i arg3 harg3 arg4 harg4 arg5 harg5 arg6 harg6 arg7 harg7 h1 h2 h3 x0 w0).1 S2048x1024.size (by sl_kernel_rfl) y
theorem coverA_S (h1 : k0_cond1 i = 1#1) (h2 : ¬k0_cond2 i = 1#1) (h3 : ¬k0_cond3 i = 1#1) (y : S2048x1024.Idx) :
    ∃ pc ∈ (runA c i arg3 harg3 arg4 harg4 arg5 harg5 arg6 harg6 arg7 harg7 h1 h2 h3 x0 w0).2.1, y ∈ pc.1.set :=
  View.cover_of_tiledL (runA c i arg3 harg3 arg4 harg4 arg5 harg5 arg6 harg6 arg7 harg7 h1 h2 h3 x0 w0).2.1 S2048x1024.size (by sl_kernel_rfl) y
theorem coverB_O (h1 : ¬k0_cond1 i = 1#1) (h2 : k0_cond2 i = 1#1) (h3 : ¬k0_cond3 i = 1#1) (y : S2048x1024.Idx) :
    ∃ pc ∈ (runB c i arg3 harg3 arg4 harg4 arg5 harg5 arg6 harg6 arg7 harg7 h1 h2 h3 x0 w0 xo).1, y ∈ pc.1.set :=
  View.cover_of_tiledL (runB c i arg3 harg3 arg4 harg4 arg5 harg5 arg6 harg6 arg7 harg7 h1 h2 h3 x0 w0 xo).1 S2048x1024.size (by sl_kernel_rfl) y
theorem coverC_O (h1 : ¬k0_cond1 i = 1#1) (h2 : k0_cond2 i = 1#1) (h3 : k0_cond3 i = 1#1) (y : S2048x1024.Idx) :
    ∃ pc ∈ (runC c i arg3 harg3 arg4 harg4 arg5 harg5 arg6 harg6 arg7 harg7 h1 h2 h3 x0 w0 b0 xo xs).1, y ∈ pc.1.set :=
  View.cover_of_tiledL (runC c i arg3 harg3 arg4 harg4 arg5 harg5 arg6 harg6 arg7 harg7 h1 h2 h3 x0 w0 b0 xo xs).1 S2048x1024.size (by sl_kernel_rfl) y

/-- The output block after case A, and the mask it stores. -/
def outA (h1 : k0_cond1 i = 1#1) (h2 : ¬k0_cond2 i = 1#1) (h3 : ¬k0_cond3 i = 1#1) : Vec F S2048x1024 .f32 :=
  VO.read (Elt F) (VO.writes (Elt F) VO.junk (runA c i arg3 harg3 arg4 harg4 arg5 harg5 arg6 harg6 arg7 harg7 h1 h2 h3 x0 w0).1)
def maskA (h1 : k0_cond1 i = 1#1) (h2 : ¬k0_cond2 i = 1#1) (h3 : ¬k0_cond3 i = 1#1) : Vec F S2048x1024 .f32 :=
  VS.read (Elt F) (VS.writes (Elt F) VS.junk (runA c i arg3 harg3 arg4 harg4 arg5 harg5 arg6 harg6 arg7 harg7 h1 h2 h3 x0 w0).2.1)
/-- The output block after case B, from the accumulator `xo`. -/
def outB (h1 : ¬k0_cond1 i = 1#1) (h2 : k0_cond2 i = 1#1) (h3 : ¬k0_cond3 i = 1#1) : Vec F S2048x1024 .f32 :=
  VO.read (Elt F) (VO.writes (Elt F) VO.junk (runB c i arg3 harg3 arg4 harg4 arg5 harg5 arg6 harg6 arg7 harg7 h1 h2 h3 x0 w0 xo).1)
/-- The output block after case C, from the accumulator `xo` and the mask `xs`. -/
def outC (h1 : ¬k0_cond1 i = 1#1) (h2 : k0_cond2 i = 1#1) (h3 : k0_cond3 i = 1#1) : Vec F S2048x1024 .f32 :=
  VO.read (Elt F) (VO.writes (Elt F) VO.junk (runC c i arg3 harg3 arg4 harg4 arg5 harg5 arg6 harg6 arg7 harg7 h1 h2 h3 x0 w0 b0 xo xs).1)

end Cases

/-! ## The accumulation over the points -/

/-- The pair (output block, mask) after the body at position `n`. -/
def stateAt (c : Dev nD) : (n : ℕ) → n < cfg0.N → Vec F S2048x1024 .f32 × Vec F S2048x1024 .f32
  | 0, hn =>
    (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _)
        (iblk m c 0 ⟨0, hn⟩) (iblk m c 1 ⟨0, hn⟩)
        ((hcond1 ⟨0, hn⟩).mpr (Nat.zero_mod _)) (fun h => (hcond2 ⟨0, hn⟩).mp h (Nat.zero_mod _)) (fun h => by have := (hcond3 ⟨0, hn⟩).mp h; simp at this),
     maskA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _)
        (iblk m c 0 ⟨0, hn⟩) (iblk m c 1 ⟨0, hn⟩)
        ((hcond1 ⟨0, hn⟩).mpr (Nat.zero_mod _)) (fun h => (hcond2 ⟨0, hn⟩).mp h (Nat.zero_mod _)) (fun h => by have := (hcond3 ⟨0, hn⟩).mp h; simp at this))
  | n + 1, hn =>
    if h0 : (n + 1) % 4 = 0 then
      (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩)
          ((hcond1 ⟨n + 1, hn⟩).mpr h0) (fun h => (hcond2 ⟨n + 1, hn⟩).mp h h0) (fun h => by have := (hcond3 ⟨n + 1, hn⟩).mp h; dsimp only at this; omega),
       maskA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩)
          ((hcond1 ⟨n + 1, hn⟩).mpr h0) (fun h => (hcond2 ⟨n + 1, hn⟩).mp h h0) (fun h => by have := (hcond3 ⟨n + 1, hn⟩).mp h; dsimp only at this; omega))
    else if h3 : (n + 1) % 4 = 3 then
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩) (iblk m c 2 ⟨n + 1, hn⟩) (stateAt c n (Nat.lt_of_succ_lt hn)).1 (stateAt c n (Nat.lt_of_succ_lt hn)).2
          (fun h => h0 ((hcond1 ⟨n + 1, hn⟩).mp h)) ((hcond2 ⟨n + 1, hn⟩).mpr h0) ((hcond3 ⟨n + 1, hn⟩).mpr h3),
       (stateAt c n (Nat.lt_of_succ_lt hn)).2)
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩) (stateAt c n (Nat.lt_of_succ_lt hn)).1
          (fun h => h0 ((hcond1 ⟨n + 1, hn⟩).mp h)) ((hcond2 ⟨n + 1, hn⟩).mpr h0) (fun h => h3 ((hcond3 ⟨n + 1, hn⟩).mp h)),
       (stateAt c n (Nat.lt_of_succ_lt hn)).2)

/-- The pair the point before `t` left. -/
abbrev prevAt (c : Dev nD) (t : Fin cfg0.N) : Vec F S2048x1024 .f32 × Vec F S2048x1024 .f32 :=
  stateAt m c (t.val - 1) (Nat.lt_of_le_of_lt (Nat.sub_le _ _) t.isLt)

theorem stateAt_A (c : Dev nD) (t : Fin cfg0.N) (h0 : t.val % 4 = 0) :
    stateAt m c t.val t.isLt =
      (outA c (grid0.coords t) (ms0 t) (hs0 t) (ms1 t) (hs1 t) (ms2 t) (hs2 t) (ms3 t) (hs3 t) scM (Memref.isWhole_whole _)
          (iblk m c 0 t) (iblk m c 1 t)
          ((hcond1 t).mpr h0) (fun h => (hcond2 t).mp h h0) (fun h => by have := (hcond3 t).mp h; omega),
       maskA c (grid0.coords t) (ms0 t) (hs0 t) (ms1 t) (hs1 t) (ms2 t) (hs2 t) (ms3 t) (hs3 t) scM (Memref.isWhole_whole _)
          (iblk m c 0 t) (iblk m c 1 t)
          ((hcond1 t).mpr h0) (fun h => (hcond2 t).mp h h0) (fun h => by have := (hcond3 t).mp h; omega)) := by
  obtain ⟨n, hn⟩ := t
  cases n with
  | zero => rfl
  | succ n => exact (dif_pos h0).trans rfl

theorem stateAt_B (c : Dev nD) (t : Fin cfg0.N) (h0 : ¬t.val % 4 = 0) (h3 : ¬t.val % 4 = 3) :
    stateAt m c t.val t.isLt =
      (outB c (grid0.coords t) (ms0 t) (hs0 t) (ms1 t) (hs1 t) (ms2 t) (hs2 t) (ms3 t) (hs3 t) scM (Memref.isWhole_whole _)
          (iblk m c 0 t) (iblk m c 1 t) (prevAt m c t).1
          (fun h => h0 ((hcond1 t).mp h)) ((hcond2 t).mpr h0) (fun h => h3 ((hcond3 t).mp h)),
       (prevAt m c t).2) := by
  obtain ⟨n, hn⟩ := t
  cases n with
  | zero => exact absurd (Nat.zero_mod _) h0
  | succ n => exact (dif_neg h0).trans ((dif_neg h3).trans rfl)

theorem stateAt_C (c : Dev nD) (t : Fin cfg0.N) (h0 : ¬t.val % 4 = 0) (h3 : t.val % 4 = 3) :
    stateAt m c t.val t.isLt =
      (outC c (grid0.coords t) (ms0 t) (hs0 t) (ms1 t) (hs1 t) (ms2 t) (hs2 t) (ms3 t) (hs3 t) scM (Memref.isWhole_whole _)
          (iblk m c 0 t) (iblk m c 1 t) (iblk m c 2 t) (prevAt m c t).1 (prevAt m c t).2
          (fun h => h0 ((hcond1 t).mp h)) ((hcond2 t).mpr h0) ((hcond3 t).mpr h3),
       (prevAt m c t).2) := by
  obtain ⟨n, hn⟩ := t
  cases n with
  | zero => exact absurd (Nat.zero_mod _) h0
  | succ n => exact (dif_neg h0).trans ((dif_pos h3).trans rfl)

/-! ## The invariant: the mask carried from a point to the next -/

def Carried (c : Dev nD) : (n : ℕ) → n ≤ cfg0.N → sProp 𝕄
  | 0, _ => Pipeline.ΦA spec0 c
  | n + 1, hn => iprop(iprop(owns (c : Thread nD τ) scM fullShare ((stateAt m c n hn).2)) ∗ (∃ r, prngReg c r))

theorem Carried_zero (c : Dev nD) (n : ℕ) (h : n ≤ cfg0.N) (hz : n = 0) : Carried m c n h = Pipeline.ΦA spec0 c := by
  subst hz; rfl
theorem Carried_succ (c : Dev nD) (n : ℕ) (hn : n < cfg0.N) :
    Carried m c (n + 1) hn = iprop(iprop(owns (c : Thread nD τ) scM fullShare ((stateAt m c n hn).2)) ∗ (∃ r, prngReg c r)) := rfl
theorem Carried_pos (c : Dev nD) (n : ℕ) (h : n ≤ cfg0.N) (hz : n ≠ 0) :
    Carried m c n h = iprop(iprop(owns (c : Thread nD τ) scM fullShare ((stateAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Carried_castSucc (c : Dev nD) (t : Fin cfg0.N) :
    (dats m 0 c).Φ t.castSucc = Carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (stateAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output block is not written back between a point with k ≠ 0 and the one before it. -/
theorem noFlushBefore (t : Fin cfg0.N) (h0 : ¬t.val % 4 = 0) :
    (cfg0.win 3).flush ⟨t.val - 1, Nat.lt_of_le_of_lt (Nat.sub_le _ _) t.isLt⟩ = false := by
  cases hfl : (cfg0.win 3).flush ⟨t.val - 1, Nat.lt_of_le_of_lt (Nat.sub_le _ _) t.isLt⟩ with
  | false => rfl
  | true => have := (flush0_3 _).mp hfl; dsimp only at this; omega

/-- The output window is live at every grid coordinate: its liveness reads only k, and one of the three
    branches is taken at each of the four values of k. -/
theorem live3_all : ∀ i : grid0.Coords, cfg0.idle 3 i = false := by
  intro i
  have key : ∀ n : Fin 4,
      (!((Scalar.cmpi .ne (Scalar.extui (Scalar.cmpi .eq (BitVec.ofNat 32 n.val) 0#32) : BitVec 32) 0#32) == 1#1)
        && !((Scalar.cmpi .ne (Scalar.extui (Scalar.cmpi .ne (BitVec.ofNat 32 n.val) 0#32) : BitVec 32) 0#32) == 1#1)
        && !((Scalar.cmpi .ne (Scalar.extui (Scalar.cmpi .eq (BitVec.ofNat 32 n.val) 3#32) : BitVec 32) 0#32) == 1#1)) = false := by decide
  exact key (i 2)

/-- So at k ≠ 0 the output's staging buffer holds what the point before left: the accumulator. -/
theorem before_3 (c : Dev nD) (t : Fin cfg0.N) (h0 : ¬t.val % 4 = 0) (d) : (dats m 0 c).before 3 t d = (prevAt m c t).1 :=
  ((dats m 0 c).before_out_kept 3 rfl t (fun hz => h0 (by rw [hz])) (noFlushBefore t h0) live3_all (fun _ _ => rfl) d).trans (after_3 m c _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live 0 t, after_0]
theorem leaves_1 (c : Dev nD) (t : Fin cfg0.N) :
    (dats m 0 c).leavesExact 1 t = owns (c : Thread nD τ) (ms1 t) fullShare (iblk m c 1 t) := by
  unfold Dat.leavesExact; rw [live 1 t, after_1]
theorem leaves_2 (c : Dev nD) (t : Fin cfg0.N) :
    (dats m 0 c).leavesExact 2 t = owns (c : Thread nD τ) (ms2 t) fullShare (iblk m c 2 t) := by
  unfold Dat.leavesExact; rw [live 2 t, after_2]
theorem leaves_3 (c : Dev nD) (t : Fin cfg0.N) :
    (dats m 0 c).leavesExact 3 t = owns (c : Thread nD τ) (ms3 t) fullShare ((stateAt m c t.val t.isLt).1) := by
  unfold Dat.leavesExact; rw [live 3 t, after_3]

set_option maxHeartbeats 4800000 in
/-- The body at any point: the inputs' memrefs hold their blocks; k decides the case; at k ≠ 0 the output's
    buffer holds the accumulator the point before left and the invariant hands over the mask it left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Carried m c (t.val + 1) t.isLt from rfl, Carried_succ]
  rw [leaves_0, leaves_1, leaves_2, leaves_3]
  by_cases h0 : t.val % 4 = 0
  · rw [stateAt_A m c t h0]
    unfold outA maskA; (try dsimp only)
    by_cases hz : t.val = 0
    · rw [Carried_castSucc m c t, Carried_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 Set.univ _)
      isplitl [H0]; · iexact H0
      isplitl [H1]; · iexact H1
      isplitl [H3]; · iexists _; iexact H3
      isplitl [HS]; · iexact HS
      iintro ⟨H0, H1, ⟨%e3, H3⟩, ⟨%es, HS⟩⟩
      isplitl [HS Hg]
      · isplitl [HS]
        · unfold owns; iexists _; isplitr
          swap; · iexact HS
          ipureintro; exact View.read_writes_of_cover _ _ _ _ _ (coverA_S c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA_O c _ _ _ _ _ _ _ _ _ _ _ _ _ _ _ _)
    · rw [Carried_castSucc m c t, Carried_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 Set.univ _)
      isplitl [H0]; · iexact H0
      isplitl [H1]; · iexact H1
      isplitl [H3]; · iexists _; iexact H3
      isplitl [HS]; · iexists _; iexact HS
      iintro ⟨H0, H1, ⟨%e3, H3⟩, ⟨%es, HS⟩⟩
      isplitl [HS Hg]
      · isplitl [HS]
        · unfold owns; iexists _; isplitr
          swap; · iexact HS
          ipureintro; exact View.read_writes_of_cover _ _ _ _ _ (coverA_S c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA_O c _ _ _ _ _ _ _ _ _ _ _ _ _ _ _ _)
  · have hz : t.val ≠ 0 := fun hz => h0 (by rw [hz])
    simp only [before_3 m c t h0]
    rw [Carried_castSucc m c t, Carried_pos m c _ _ hz]
    by_cases h3 : t.val % 4 = 3
    · rw [stateAt_C m c t h0 h3]
      unfold outC; (try dsimp only)
      iintro ⟨⟨HS, Hg⟩, Ho, ⟨%d0, H0⟩, ⟨%d1, H1⟩, ⟨%d2, H2⟩, ⟨%d3, H3⟩⟩
      iapply ((runC c (grid0.coords t) _ _ _ _ _ _ _ _ _ _ (fun h => h0 ((hcond1 t).mp h)) ((hcond2 t).mpr h0) ((hcond3 t).mpr h3) (iblk m c 0 t) (iblk m c 1 t) (iblk m c 2 t) (prevAt m c t).1 (prevAt m c t).2).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_O c _ _ _ _ _ _ _ _ _ _ _ _ _ _ _ _ _ _ _)
    · rw [stateAt_B m c t h0 h3]
      unfold outB; (try dsimp only)
      iintro ⟨⟨HS, Hg⟩, Ho, ⟨%d0, H0⟩, ⟨%d1, H1⟩, ⟨%d2, H2⟩, ⟨%d3, H3⟩⟩
      iapply ((runB c (grid0.coords t) _ _ _ _ _ _ _ _ _ _ (fun h => h0 ((hcond1 t).mp h)) ((hcond2 t).mpr h0) (fun h => h3 ((hcond3 t).mp h)) (iblk m c 0 t) (iblk m c 1 t) (prevAt m c t).1).2 Set.univ _)
      isplitl [H0]; · iexact H0
      isplitl [H1]; · iexact H1
      isplitl [H3]; · iexact H3
      iintro ⟨H0, H1, ⟨%e3, H3⟩⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_O c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Carried m c 0 (Nat.zero_le _) from rfl, Carried_zero m c 0 _ rfl]
  try exact Idealize.SL.BI.Entails.refl _

/-- After the last point the mask's named contents are forgotten. -/
theorem hout (c : Dev nD) : (dats m 0 c).Φ (Fin.last cfg0.N) ⊢ Pipeline.ΦA spec0 c := by
  have hN : (Fin.last cfg0.N).val ≠ 0 := by rw [Fin.val_last]; have : cfg0.N = 128 := N_0; omega
  rw [show (dats m 0 c).Φ (Fin.last cfg0.N) = Carried m c (Fin.last cfg0.N).val (Nat.le_of_lt_succ (Fin.last cfg0.N).isLt) from rfl,
    Carried_pos m c _ _ hN, PhiA_eq]
  iintro ⟨HS, Hg⟩
  isplitl [HS]
  · iexists _; iexact HS
  iexact Hg

/-! ## The run and the frame -/

set_option backward.isDefEq.respectTransparency.types false in
/-- Every weakly fair execution of @main terminates, and in every final state each array of the pipeline holds what
    the library computes from the proof data and every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealRuns.lean ====
/-
  The kernel body run once per control case, on any whole staging memrefs.

  The grid is (i, j, k) with k innermost; the body's three branches read only k:
  k = 0 seeds the accumulator block and stores the mask, k ≠ 0 adds a K-block's product into the
  accumulator, and k = 3 (after that addition) adds the bias row and applies the mask. So a point is in
  one of three cases: A (k = 0), B (k = 1, 2), C (k = 3). For each case the body is run from the input
  blocks at given contents, the output block and the mask scratch at given or arbitrary contents, to a
  state where the buffers it stored into hold a list of written pieces; the pieces are found by the run.
-/
import proofs.«131979_j48679159333253_2_alg».proof.Proof.Gen.KernelIdeal.Frame
import proofs.«131979_j48679159333253_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid: they read only k = t mod 4 -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

/-- Every point stores into the output block (one of the three branches is taken at each k), and the
    inputs are never idle. -/
theorem live : ∀ (w : Fin 4) (t : Fin cfg0.N), cfg0.idle w (grid0.coords t) = false :=
  (by decide +kernel : ∀ (w : Fin 4) (t : Fin grid0.N), cfg0.idle w (grid0.coords t) = false)

/-! ## The three runs -/

set_option maxHeartbeats 4000000 in
/-- Case A, k = 0: the mask scratch and the output block are both overwritten whole. -/
noncomputable def runA (c : Dev nD) (i : grid0.Coords)
    (arg3 : Memref sig .tc .vmem S2048x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (h1 : k0_cond1 i = 1#1) (h2 : ¬k0_cond2 i = 1#1) (h3 : ¬k0_cond3 i = 1#1)
    (x0 : Vec F S2048x1024 .f32) (w0 : Vec F S1024x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare w0
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare w0
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f3, %hf3, H3⟩, ⟨%f4, %hf4, H4⟩, ⟨%d6, %f6, -, H6⟩, ⟨%d7, %f7, -, H7⟩, Hk⟩
    obtain rfl := harg3.eq_unread hf3; obtain rfl := harg4.eq_unread hf4
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H6]; · iexists _; iexact H6
    iexists _; iexact H7

set_option maxHeartbeats 4000000 in
/-- Case B, k = 1 or 2: the output block, holding the accumulator `xo`, is overwritten whole; the mask
    scratch is not touched. -/
noncomputable def runB (c : Dev nD) (i : grid0.Coords)
    (arg3 : Memref sig .tc .vmem S2048x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (h1 : ¬k0_cond1 i = 1#1) (h2 : k0_cond2 i = 1#1) (h3 : ¬k0_cond3 i = 1#1)
    (x0 : Vec F S2048x1024 .f32) (w0 : Vec F S1024x1024 .f32) (xo : Vec F S2048x1024 .f32) :
    { LO : List (View.Piece (Elt F) S2048x1024 .f32) //
      ∀ (E : Set ℕ) (K : PUnit → sProp 𝕄),
        iprop(owns (c : Thread nD τ) arg3 fullShare x0 ∗ owns (c : Thread nD τ) arg4 fullShare w0
            ∗ owns (c : Thread nD τ) arg6 fullShare xo
            ∗ (iprop(owns (c : Thread nD τ) arg3 fullShare x0 ∗ owns (c : Thread nD τ) arg4 fullShare w0
                ∗ (∃ f, arg6.view.loc (c : Thread nD τ) ↦[arg6.view.set]{fullShare} arg6.view.writes (Elt F) f LO)) -∗ K ⟨⟩))
          ⊢ wp frame (wpE (defs₀ (F := F)) Variants.none c none) E (cc0__kernel i arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f3, %hf3, H3⟩, ⟨%f4, %hf4, H4⟩, ⟨%f6, %hf6, H6⟩, Hk⟩
    obtain rfl := harg3.eq_unread hf3; obtain rfl := harg4.eq_unread hf4; obtain rfl := harg6.eq_unread hf6
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    iexists _; iexact H6

set_option maxHeartbeats 4000000 in
/-- Case C, k = 3: the accumulator `xo` takes the last K-block's product, then the bias row `b0` is added
    and the mask `xs` applied; two whole stores into the output block. -/
noncomputable def runC (c : Dev nD) (i : grid0.Coords)
    (arg3 : Memref sig .tc .vmem S2048x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (h1 : ¬k0_cond1 i = 1#1) (h2 : k0_cond2 i = 1#1) (h3 : k0_cond3 i = 1#1)
    (x0 : Vec F S2048x1024 .f32) (w0 : Vec F S1024x1024 .f32) (b0 : Vec F S1x1024 .f32) (xo : Vec F S2048x1024 .f32) (xs : Vec F S2048x1024 .f32) :
    { LO : List (View.Piece (Elt F) S2048x1024 .f32) //
      ∀ (E : Set ℕ) (K : PUnit → sProp 𝕄),
        iprop(owns (c : Thread nD τ) arg3 fullShare x0 ∗ owns (c : Thread nD τ) arg4 fullShare w0 ∗ owns (c : Thread nD τ) arg5 fullShare b0
            ∗ owns (c : Thread nD τ) arg6 fullShare xo ∗ owns (c : Thread nD τ) arg7 fullShare xs
            ∗ (iprop(owns (c : Thread nD τ) arg3 fullShare x0 ∗ owns (c : Thread nD τ) arg4 fullShare w0 ∗ owns (c : Thread nD τ) arg5 fullShare b0
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__kernel i arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.KernelIdeal.Body

end
-- ==== Proof.IdealFrame.lean ====
/-
  The frame of the program: the proof data of its one pipeline, the body obligation and the run.

  A grid point is t = 4·(16·i + j) + k. The output block (i, j) stays in its staging buffer over the four
  points k = 0 … 3 and is written back after k = 3; the mask scratch is written at k = 0 and read at k = 3.
  So what the body leaves is stated by recursion on the point (`stateAt`): a pair (output block, mask),
  at k = 0 what case A computes from the point's input blocks, at k = 1, 2 what case B makes of the pair
  the point before left, at k = 3 what case C makes of it. The region invariant carries the mask from a
  point to the next (`Carried`): before the first point the scratch holds anything.
-/
import proofs.«131979_j48679159333253_2_alg».proof.Proof.IdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)
/-- The mask scratch, a whole scoped buffer of the kernel's own. -/
abbrev scM : Memref sig .tc .vmem S2048x1024 .f32 := Memref.whole cc0_scratch0
/-- A view of the output block's shape and one of the scratch, through which contents are stated. -/
abbrev VO : View sig .tc .vmem S2048x1024 .f32 := (Memref.whole cc0_stg3_0 : Memref sig .tc .vmem S2048x1024 .f32).view
abbrev VS : View sig .tc .vmem S2048x1024 .f32 := (scM : Memref sig .tc .vmem S2048x1024 .f32).view

/-- The class invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each case leaves -/

section Cases
variable (c : Dev nD) (i : grid0.Coords)
  (arg3 : Memref sig .tc .vmem S2048x1024 .f32) (harg3 : arg3.IsWhole) (arg4 : Memref sig .tc .vmem S1024x1024 .f32) (harg4 : arg4.IsWhole)
  (arg5 : Memref sig .tc .vmem S1x1024 .f32) (harg5 : arg5.IsWhole) (arg6 : Memref sig .tc .vmem S2048x1024 .f32) (harg6 : arg6.IsWhole)
  (arg7 : Memref sig .tc .vmem S2048x1024 .f32) (harg7 : arg7.IsWhole)
  (x0 : Vec F S2048x1024 .f32) (w0 : Vec F S1024x1024 .f32) (b0 : Vec F S1x1024 .f32) (xo xs : Vec F S2048x1024 .f32)

theorem coverA_O (h1 : k0_cond1 i = 1#1) (h2 : ¬k0_cond2 i = 1#1) (h3 : ¬k0_cond3 i = 1#1) (y : S2048x1024.Idx) :
    ∃ pc ∈ (runA c i arg3 harg3 arg4 harg4 arg5 harg5 arg6 harg6 arg7 harg7 h1 h2 h3 x0 w0).1, y ∈ pc.1.set :=
  View.cover_of_tiledL (runA c i arg3 harg3 arg4 harg4 arg5 harg5 arg6 harg6 arg7 harg7 h1 h2 h3 x0 w0).1 S2048x1024.size (by sl_kernel_rfl) y
theorem coverA_S (h1 : k0_cond1 i = 1#1) (h2 : ¬k0_cond2 i = 1#1) (h3 : ¬k0_cond3 i = 1#1) (y : S2048x1024.Idx) :
    ∃ pc ∈ (runA c i arg3 harg3 arg4 harg4 arg5 harg5 arg6 harg6 arg7 harg7 h1 h2 h3 x0 w0).2.1, y ∈ pc.1.set :=
  View.cover_of_tiledL (runA c i arg3 harg3 arg4 harg4 arg5 harg5 arg6 harg6 arg7 harg7 h1 h2 h3 x0 w0).2.1 S2048x1024.size (by sl_kernel_rfl) y
theorem coverB_O (h1 : ¬k0_cond1 i = 1#1) (h2 : k0_cond2 i = 1#1) (h3 : ¬k0_cond3 i = 1#1) (y : S2048x1024.Idx) :
    ∃ pc ∈ (runB c i arg3 harg3 arg4 harg4 arg5 harg5 arg6 harg6 arg7 harg7 h1 h2 h3 x0 w0 xo).1, y ∈ pc.1.set :=
  View.cover_of_tiledL (runB c i arg3 harg3 arg4 harg4 arg5 harg5 arg6 harg6 arg7 harg7 h1 h2 h3 x0 w0 xo).1 S2048x1024.size (by sl_kernel_rfl) y
theorem coverC_O (h1 : ¬k0_cond1 i = 1#1) (h2 : k0_cond2 i = 1#1) (h3 : k0_cond3 i = 1#1) (y : S2048x1024.Idx) :
    ∃ pc ∈ (runC c i arg3 harg3 arg4 harg4 arg5 harg5 arg6 harg6 arg7 harg7 h1 h2 h3 x0 w0 b0 xo xs).1, y ∈ pc.1.set :=
  View.cover_of_tiledL (runC c i arg3 harg3 arg4 harg4 arg5 harg5 arg6 harg6 arg7 harg7 h1 h2 h3 x0 w0 b0 xo xs).1 S2048x1024.size (by sl_kernel_rfl) y

/-- The output block after case A, and the mask it stores. -/
def outA (h1 : k0_cond1 i = 1#1) (h2 : ¬k0_cond2 i = 1#1) (h3 : ¬k0_cond3 i = 1#1) : Vec F S2048x1024 .f32 :=
  VO.read (Elt F) (VO.writes (Elt F) VO.junk (runA c i arg3 harg3 arg4 harg4 arg5 harg5 arg6 harg6 arg7 harg7 h1 h2 h3 x0 w0).1)
def maskA (h1 : k0_cond1 i = 1#1) (h2 : ¬k0_cond2 i = 1#1) (h3 : ¬k0_cond3 i = 1#1) : Vec F S2048x1024 .f32 :=
  VS.read (Elt F) (VS.writes (Elt F) VS.junk (runA c i arg3 harg3 arg4 harg4 arg5 harg5 arg6 harg6 arg7 harg7 h1 h2 h3 x0 w0).2.1)
/-- The output block after case B, from the accumulator `xo`. -/
def outB (h1 : ¬k0_cond1 i = 1#1) (h2 : k0_cond2 i = 1#1) (h3 : ¬k0_cond3 i = 1#1) : Vec F S2048x1024 .f32 :=
  VO.read (Elt F) (VO.writes (Elt F) VO.junk (runB c i arg3 harg3 arg4 harg4 arg5 harg5 arg6 harg6 arg7 harg7 h1 h2 h3 x0 w0 xo).1)
/-- The output block after case C, from the accumulator `xo` and the mask `xs`. -/
def outC (h1 : ¬k0_cond1 i = 1#1) (h2 : k0_cond2 i = 1#1) (h3 : k0_cond3 i = 1#1) : Vec F S2048x1024 .f32 :=
  VO.read (Elt F) (VO.writes (Elt F) VO.junk (runC c i arg3 harg3 arg4 harg4 arg5 harg5 arg6 harg6 arg7 harg7 h1 h2 h3 x0 w0 b0 xo xs).1)

end Cases

/-! ## The accumulation over the points -/

/-- The pair (output block, mask) after the body at position `n`. -/
def stateAt (c : Dev nD) : (n : ℕ) → n < cfg0.N → Vec F S2048x1024 .f32 × Vec F S2048x1024 .f32
  | 0, hn =>
    (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _)
        (iblk m c 0 ⟨0, hn⟩) (iblk m c 1 ⟨0, hn⟩)
        ((hcond1 ⟨0, hn⟩).mpr (Nat.zero_mod _)) (fun h => (hcond2 ⟨0, hn⟩).mp h (Nat.zero_mod _)) (fun h => by have := (hcond3 ⟨0, hn⟩).mp h; simp at this),
     maskA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _)
        (iblk m c 0 ⟨0, hn⟩) (iblk m c 1 ⟨0, hn⟩)
        ((hcond1 ⟨0, hn⟩).mpr (Nat.zero_mod _)) (fun h => (hcond2 ⟨0, hn⟩).mp h (Nat.zero_mod _)) (fun h => by have := (hcond3 ⟨0, hn⟩).mp h; simp at this))
  | n + 1, hn =>
    if h0 : (n + 1) % 4 = 0 then
      (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩)
          ((hcond1 ⟨n + 1, hn⟩).mpr h0) (fun h => (hcond2 ⟨n + 1, hn⟩).mp h h0) (fun h => by have := (hcond3 ⟨n + 1, hn⟩).mp h; dsimp only at this; omega),
       maskA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩)
          ((hcond1 ⟨n + 1, hn⟩).mpr h0) (fun h => (hcond2 ⟨n + 1, hn⟩).mp h h0) (fun h => by have := (hcond3 ⟨n + 1, hn⟩).mp h; dsimp only at this; omega))
    else if h3 : (n + 1) % 4 = 3 then
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩) (iblk m c 2 ⟨n + 1, hn⟩) (stateAt c n (Nat.lt_of_succ_lt hn)).1 (stateAt c n (Nat.lt_of_succ_lt hn)).2
          (fun h => h0 ((hcond1 ⟨n + 1, hn⟩).mp h)) ((hcond2 ⟨n + 1, hn⟩).mpr h0) ((hcond3 ⟨n + 1, hn⟩).mpr h3),
       (stateAt c n (Nat.lt_of_succ_lt hn)).2)
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _)
          (iblk m c 0 ⟨n + 1, hn⟩) (iblk m c 1 ⟨n + 1, hn⟩) (stateAt c n (Nat.lt_of_succ_lt hn)).1
          (fun h => h0 ((hcond1 ⟨n + 1, hn⟩).mp h)) ((hcond2 ⟨n + 1, hn⟩).mpr h0) (fun h => h3 ((hcond3 ⟨n + 1, hn⟩).mp h)),
       (stateAt c n (Nat.lt_of_succ_lt hn)).2)

/-- The pair the point before `t` left. -/
abbrev prevAt (c : Dev nD) (t : Fin cfg0.N) : Vec F S2048x1024 .f32 × Vec F S2048x1024 .f32 :=
  stateAt m c (t.val - 1) (Nat.lt_of_le_of_lt (Nat.sub_le _ _) t.isLt)

theorem stateAt_A (c : Dev nD) (t : Fin cfg0.N) (h0 : t.val % 4 = 0) :
    stateAt m c t.val t.isLt =
      (outA c (grid0.coords t) (ms0 t) (hs0 t) (ms1 t) (hs1 t) (ms2 t) (hs2 t) (ms3 t) (hs3 t) scM (Memref.isWhole_whole _)
          (iblk m c 0 t) (iblk m c 1 t)
          ((hcond1 t).mpr h0) (fun h => (hcond2 t).mp h h0) (fun h => by have := (hcond3 t).mp h; omega),
       maskA c (grid0.coords t) (ms0 t) (hs0 t) (ms1 t) (hs1 t) (ms2 t) (hs2 t) (ms3 t) (hs3 t) scM (Memref.isWhole_whole _)
          (iblk m c 0 t) (iblk m c 1 t)
          ((hcond1 t).mpr h0) (fun h => (hcond2 t).mp h h0) (fun h => by have := (hcond3 t).mp h; omega)) := by
  obtain ⟨n, hn⟩ := t
  cases n with
  | zero => rfl
  | succ n => exact (dif_pos h0).trans rfl

theorem stateAt_B (c : Dev nD) (t : Fin cfg0.N) (h0 : ¬t.val % 4 = 0) (h3 : ¬t.val % 4 = 3) :
    stateAt m c t.val t.isLt =
      (outB c (grid0.coords t) (ms0 t) (hs0 t) (ms1 t) (hs1 t) (ms2 t) (hs2 t) (ms3 t) (hs3 t) scM (Memref.isWhole_whole _)
          (iblk m c 0 t) (iblk m c 1 t) (prevAt m c t).1
          (fun h => h0 ((hcond1 t).mp h)) ((hcond2 t).mpr h0) (fun h => h3 ((hcond3 t).mp h)),
       (prevAt m c t).2) := by
  obtain ⟨n, hn⟩ := t
  cases n with
  | zero => exact absurd (Nat.zero_mod _) h0
  | succ n => exact (dif_neg h0).trans ((dif_neg h3).trans rfl)

theorem stateAt_C (c : Dev nD) (t : Fin cfg0.N) (h0 : ¬t.val % 4 = 0) (h3 : t.val % 4 = 3) :
    stateAt m c t.val t.isLt =
      (outC c (grid0.coords t) (ms0 t) (hs0 t) (ms1 t) (hs1 t) (ms2 t) (hs2 t) (ms3 t) (hs3 t) scM (Memref.isWhole_whole _)
          (iblk m c 0 t) (iblk m c 1 t) (iblk m c 2 t) (prevAt m c t).1 (prevAt m c t).2
          (fun h => h0 ((hcond1 t).mp h)) ((hcond2 t).mpr h0) ((hcond3 t).mpr h3),
       (prevAt m c t).2) := by
  obtain ⟨n, hn⟩ := t
  cases n with
  | zero => exact absurd (Nat.zero_mod _) h0
  | succ n => exact (dif_neg h0).trans ((dif_pos h3).trans rfl)

/-! ## The invariant: the mask carried from a point to the next -/

def Carried (c : Dev nD) : (n : ℕ) → n ≤ cfg0.N → sProp 𝕄
  | 0, _ => Pipeline.ΦA spec0 c
  | n + 1, hn => iprop(iprop(owns (c : Thread nD τ) scM fullShare ((stateAt m c n hn).2)) ∗ (∃ r, prngReg c r))

theorem Carried_zero (c : Dev nD) (n : ℕ) (h : n ≤ cfg0.N) (hz : n = 0) : Carried m c n h = Pipeline.ΦA spec0 c := by
  subst hz; rfl
theorem Carried_succ (c : Dev nD) (n : ℕ) (hn : n < cfg0.N) :
    Carried m c (n + 1) hn = iprop(iprop(owns (c : Thread nD τ) scM fullShare ((stateAt m c n hn).2)) ∗ (∃ r, prngReg c r)) := rfl
theorem Carried_pos (c : Dev nD) (n : ℕ) (h : n ≤ cfg0.N) (hz : n ≠ 0) :
    Carried m c n h = iprop(iprop(owns (c : Thread nD τ) scM fullShare ((stateAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Carried_castSucc (c : Dev nD) (t : Fin cfg0.N) :
    (dats m 0 c).Φ t.castSucc = Carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (stateAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output block is not written back between a point with k ≠ 0 and the one before it. -/
theorem noFlushBefore (t : Fin cfg0.N) (h0 : ¬t.val % 4 = 0) :
    (cfg0.win 3).flush ⟨t.val - 1, Nat.lt_of_le_of_lt (Nat.sub_le _ _) t.isLt⟩ = false := by
  cases hfl : (cfg0.win 3).flush ⟨t.val - 1, Nat.lt_of_le_of_lt (Nat.sub_le _ _) t.isLt⟩ with
  | false => rfl
  | true => have := (flush0_3 _).mp hfl; dsimp only at this; omega

/-- The output window is live at every grid coordinate: its liveness reads only k, and one of the three
    branches is taken at each of the four values of k. -/
theorem live3_all : ∀ i : grid0.Coords, cfg0.idle 3 i = false := by
  intro i
  have key : ∀ n : Fin 4,
      (!((Scalar.cmpi .ne (Scalar.extui (Scalar.cmpi .eq (BitVec.ofNat 32 n.val) 0#32) : BitVec 32) 0#32) == 1#1)
        && !((Scalar.cmpi .ne (Scalar.extui (Scalar.cmpi .ne (BitVec.ofNat 32 n.val) 0#32) : BitVec 32) 0#32) == 1#1)
        && !((Scalar.cmpi .ne (Scalar.extui (Scalar.cmpi .eq (BitVec.ofNat 32 n.val) 3#32) : BitVec 32) 0#32) == 1#1)) = false := by decide
  exact key (i 2)

/-- So at k ≠ 0 the output's staging buffer holds what the point before left: the accumulator. -/
theorem before_3 (c : Dev nD) (t : Fin cfg0.N) (h0 : ¬t.val % 4 = 0) (d) : (dats m 0 c).before 3 t d = (prevAt m c t).1 :=
  ((dats m 0 c).before_out_kept 3 rfl t (fun hz => h0 (by rw [hz])) (noFlushBefore t h0) live3_all (fun _ _ => rfl) d).trans (after_3 m c _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live 0 t, after_0]
theorem leaves_1 (c : Dev nD) (t : Fin cfg0.N) :
    (dats m 0 c).leavesExact 1 t = owns (c : Thread nD τ) (ms1 t) fullShare (iblk m c 1 t) := by
  unfold Dat.leavesExact; rw [live 1 t, after_1]
theorem leaves_2 (c : Dev nD) (t : Fin cfg0.N) :
    (dats m 0 c).leavesExact 2 t = owns (c : Thread nD τ) (ms2 t) fullShare (iblk m c 2 t) := by
  unfold Dat.leavesExact; rw [live 2 t, after_2]
theorem leaves_3 (c : Dev nD) (t : Fin cfg0.N) :
    (dats m 0 c).leavesExact 3 t = owns (c : Thread nD τ) (ms3 t) fullShare ((stateAt m c t.val t.isLt).1) := by
  unfold Dat.leavesExact; rw [live 3 t, after_3]

set_option maxHeartbeats 4800000 in
/-- The body at any point: the inputs' memrefs hold their blocks; k decides the case; at k ≠ 0 the output's
    buffer holds the accumulator the point before left and the invariant hands over the mask it left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Carried m c (t.val + 1) t.isLt from rfl, Carried_succ]
  rw [leaves_0, leaves_1, leaves_2, leaves_3]
  by_cases h0 : t.val % 4 = 0
  · rw [stateAt_A m c t h0]
    unfold outA maskA; (try dsimp only)
    by_cases hz : t.val = 0
    · rw [Carried_castSucc m c t, Carried_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 Set.univ _)
      isplitl [H0]; · iexact H0
      isplitl [H1]; · iexact H1
      isplitl [H3]; · iexists _; iexact H3
      isplitl [HS]; · iexact HS
      iintro ⟨H0, H1, ⟨%e3, H3⟩, ⟨%es, HS⟩⟩
      isplitl [HS Hg]
      · isplitl [HS]
        · unfold owns; iexists _; isplitr
          swap; · iexact HS
          ipureintro; exact View.read_writes_of_cover _ _ _ _ _ (coverA_S c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA_O c _ _ _ _ _ _ _ _ _ _ _ _ _ _ _ _)
    · rw [Carried_castSucc m c t, Carried_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 Set.univ _)
      isplitl [H0]; · iexact H0
      isplitl [H1]; · iexact H1
      isplitl [H3]; · iexists _; iexact H3
      isplitl [HS]; · iexists _; iexact HS
      iintro ⟨H0, H1, ⟨%e3, H3⟩, ⟨%es, HS⟩⟩
      isplitl [HS Hg]
      · isplitl [HS]
        · unfold owns; iexists _; isplitr
          swap; · iexact HS
          ipureintro; exact View.read_writes_of_cover _ _ _ _ _ (coverA_S c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA_O c _ _ _ _ _ _ _ _ _ _ _ _ _ _ _ _)
  · have hz : t.val ≠ 0 := fun hz => h0 (by rw [hz])
    simp only [before_3 m c t h0]
    rw [Carried_castSucc m c t, Carried_pos m c _ _ hz]
    by_cases h3 : t.val % 4 = 3
    · rw [stateAt_C m c t h0 h3]
      unfold outC; (try dsimp only)
      iintro ⟨⟨HS, Hg⟩, Ho, ⟨%d0, H0⟩, ⟨%d1, H1⟩, ⟨%d2, H2⟩, ⟨%d3, H3⟩⟩
      iapply ((runC c (grid0.coords t) _ _ _ _ _ _ _ _ _ _ (fun h => h0 ((hcond1 t).mp h)) ((hcond2 t).mpr h0) ((hcond3 t).mpr h3) (iblk m c 0 t) (iblk m c 1 t) (iblk m c 2 t) (prevAt m c t).1 (prevAt m c t).2).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_O c _ _ _ _ _ _ _ _ _ _ _ _ _ _ _ _ _ _ _)
    · rw [stateAt_B m c t h0 h3]
      unfold outB; (try dsimp only)
      iintro ⟨⟨HS, Hg⟩, Ho, ⟨%d0, H0⟩, ⟨%d1, H1⟩, ⟨%d2, H2⟩, ⟨%d3, H3⟩⟩
      iapply ((runB c (grid0.coords t) _ _ _ _ _ _ _ _ _ _ (fun h => h0 ((hcond1 t).mp h)) ((hcond2 t).mpr h0) (fun h => h3 ((hcond3 t).mp h)) (iblk m c 0 t) (iblk m c 1 t) (prevAt m c t).1).2 Set.univ _)
      isplitl [H0]; · iexact H0
      isplitl [H1]; · iexact H1
      isplitl [H3]; · iexact H3
      iintro ⟨H0, H1, ⟨%e3, H3⟩⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_O c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Carried m c 0 (Nat.zero_le _) from rfl, Carried_zero m c 0 _ rfl]
  try exact Idealize.SL.BI.Entails.refl _

/-- After the last point the mask's named contents are forgotten. -/
theorem hout (c : Dev nD) : (dats m 0 c).Φ (Fin.last cfg0.N) ⊢ Pipeline.ΦA spec0 c := by
  have hN : (Fin.last cfg0.N).val ≠ 0 := by rw [Fin.val_last]; have : cfg0.N = 128 := N_0; omega
  rw [show (dats m 0 c).Φ (Fin.last cfg0.N) = Carried m c (Fin.last cfg0.N).val (Nat.le_of_lt_succ (Fin.last cfg0.N).isLt) from rfl,
    Carried_pos m c _ _ hN, PhiA_eq]
  iintro ⟨HS, Hg⟩
  isplitl [HS]
  · iexists _; iexact HS
  iexact Hg

/-! ## The run and the frame -/

set_option backward.isDefEq.respectTransparency.types false in
/-- Every weakly fair execution of @main terminates, and in every final state each array of the pipeline holds what
    the library computes from the proof data and every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IdealPieces.lean ====
/-
  What each control case leaves, as the body's arithmetic of the blocks it loaded.

  Each case ends with one whole-block store into the buffer it writes (case C with two, the later one
  over a read-back of the earlier), so what the buffer holds afterwards is that store's payload; the
  loads through the whole-block rectangle read the block itself, and the two loads of the first 32 columns
  read the block's leading columns.
-/
import proofs.«131979_j48679159333253_2_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- The first 32 columns of an x block and of a w block, as the body loads them. -/
abbrev headX (x0 : Vec F S2048x1024 .f32) : Vec F S2048x32 .f32 :=
  View.ld x0 (Rect.unit (s := S2048x1024) ![0, 0] ![2048, 32] inb_S2048x1024_S2048x32_0_0)
abbrev headW (w0 : Vec F S1024x1024 .f32) : Vec F S1024x32 .f32 :=
  View.ld w0 (Rect.unit (s := S1024x1024) ![0, 0] ![1024, 32] inb_S1024x1024_S1024x32_0_0)

section
variable (c : Dev nD) (i : grid0.Coords)
  (arg3 : Memref sig .tc .vmem S2048x1024 .f32) (harg3 : arg3.IsWhole) (arg4 : Memref sig .tc .vmem S1024x1024 .f32) (harg4 : arg4.IsWhole)
  (arg5 : Memref sig .tc .vmem S1x1024 .f32) (harg5 : arg5.IsWhole) (arg6 : Memref sig .tc .vmem S2048x1024 .f32) (harg6 : arg6.IsWhole)
  (arg7 : Memref sig .tc .vmem S2048x1024 .f32) (harg7 : arg7.IsWhole)
  (x0 : Vec F S2048x1024 .f32) (w0 : Vec F S1024x1024 .f32) (b0 : Vec F S1x1024 .f32) (xo xs : Vec F S2048x1024 .f32)

/-- Case A seeds the accumulator with the prefix product plus the first block's product with its leading
    columns zeroed. -/
theorem outA_eq (h1 : k0_cond1 i = 1#1) (h2 : ¬k0_cond2 i = 1#1) (h3 : ¬k0_cond3 i = 1#1) :
    outA c i arg3 harg3 arg4 harg4 arg5 harg5 arg6 harg6 arg7 harg7 x0 w0 h1 h2 h3
      = k0_pay3 (k0_pay6 (headX x0) (headW w0)) (k0_pay8 (k0_pay1 x0) (k0_pay2 w0)) := by
  unfold outA
  rw [View.read_writes_eq_canon _ _ _ (coverA_O c i arg3 harg3 arg4 harg4 arg5 harg5 arg6 harg6 arg7 harg7 x0 w0 h1 h2 h3)]
  unfold runA; dsimp only
  rw [View.canon_unit_zero hz2]
  simp only [View.readAt_eq_ld, harg3.read_unread, harg4.read_unread, View.ld_unit_zero (S := S2048x1024) hz2, View.ld_unit_zero (S := S1024x1024) hz2]

/-- and stores the test's outcome on the prefix sums as the mask. -/
theorem maskA_eq (h1 : k0_cond1 i = 1#1) (h2 : ¬k0_cond2 i = 1#1) (h3 : ¬k0_cond3 i = 1#1) :
    maskA c i arg3 harg3 arg4 harg4 arg5 harg5 arg6 harg6 arg7 harg7 x0 w0 h1 h2 h3
      = k0_pay7 (headX x0) (headW w0) := by
  unfold maskA
  rw [View.read_writes_eq_canon _ _ _ (coverA_S c i arg3 harg3 arg4 harg4 arg5 harg5 arg6 harg6 arg7 harg7 x0 w0 h1 h2 h3)]
  unfold runA; dsimp only
  rw [View.canon_unit_zero hz2]
  simp only [View.readAt_eq_ld, harg3.read_unread, harg4.read_unread, View.ld_unit_zero (S := S2048x1024) hz2, View.ld_unit_zero (S := S1024x1024) hz2]

/-- Case B adds the block's product to the accumulator. -/
theorem outB_eq (h1 : ¬k0_cond1 i = 1#1) (h2 : k0_cond2 i = 1#1) (h3 : ¬k0_cond3 i = 1#1) :
    outB c i arg3 harg3 arg4 harg4 arg5 harg5 arg6 harg6 arg7 harg7 x0 w0 xo h1 h2 h3 = k0_pay4 x0 w0 xo := by
  unfold outB
  rw [View.read_writes_eq_canon _ _ _ (coverB_O c i arg3 harg3 arg4 harg4 arg5 harg5 arg6 harg6 arg7 harg7 x0 w0 xo h1 h2 h3)]
  unfold runB; dsimp only
  rw [View.canon_unit_zero hz2]
  simp only [View.readAt_eq_ld, harg3.read_unread, harg4.read_unread, harg6.read_unread, View.ld_unit_zero (S := S2048x1024) hz2, View.ld_unit_zero (S := S1024x1024) hz2]

/-- Case C adds the last block's product, then the bias row, and applies the mask. -/
theorem outC_eq (h1 : ¬k0_cond1 i = 1#1) (h2 : k0_cond2 i = 1#1) (h3 : k0_cond3 i = 1#1) :
    outC c i arg3 harg3 arg4 harg4 arg5 harg5 arg6 harg6 arg7 harg7 x0 w0 b0 xo xs h1 h2 h3
      = k0_pay5 (k0_pay4 x0 w0 xo) b0 xs := by
  unfold outC
  rw [View.read_writes_eq_canon _ _ _ (coverC_O c i arg3 harg3 arg4 harg4 arg5 harg5 arg6 harg6 arg7 harg7 x0 w0 b0 xo xs h1 h2 h3)]
  unfold runC; dsimp only
  sl_unfold_words
  rw [View.canon_cons_unit_zero (S := S2048x1024) hz2, View.readCov_unit_zero (S := S2048x1024) _ hz2]
  simp only [View.readAt_eq_ld, harg3.read_unread, harg4.read_unread, harg5.read_unread, harg6.read_unread, harg7.read_unread,
    View.ld_unit_zero (S := S2048x1024) hz2, View.ld_unit_zero (S := S1024x1024) hz2, View.ld_unit_zero (S := S1x1024) hz2]

end

end Cert.KernelIdeal.Body

end
-- ==== Proof.Spec.lean ====
/-
  The early-exit linear layer as one function of its three argument arrays, on the extended reals.

  For x : [4096, 4096], w : [16384, 4096], b : [16384], at output index (P, Q):
    head   = sum over the first 32 columns n of x(P,n) · w(Q,n)
    headSq = sum over the first 32 columns n of x(P,n)² · w(Q,n)²
    tail   = sum over the remaining 4064 columns of x(P,n) · w(Q,n)
  a z-test statistic of (head, headSq) is compared with a bound, and the result is 0 where the test
  passes and head + tail + b(Q) elsewhere (`G`).

  The kernel arranges the same sums differently (`K`): the contraction runs over four consecutive blocks of
  1024 columns, the first block with its first 32 columns zeroed (they are in `head` already), added to
  `head` one block at a time; and the test's outcome is kept as the number 1 or 0 and read back by a
  comparison with 1/2.
-/
import Idealize.ShloMosaic.PureOps.Ideal
import Idealize.ShloMosaic.Lib.ValueIdx

noncomputable section

open scoped BigOperators

namespace Cert.EarlyExit

open Idealize.ShloMosaic Idealize.ShloMosaic.ValueIdx

abbrev SX : Shape := ⟨2, ![4096, 4096]⟩
abbrev SW : Shape := ⟨2, ![16384, 4096]⟩
abbrev SB : Shape := ⟨1, ![16384]⟩
abbrev SO : Shape := ⟨2, ![4096, 16384]⟩

/-- Entry (P, n) of a matrix with 4096 columns, read as zero past the last column. -/
def at2 {R : Nat} (x : (⟨2, ![R, 4096]⟩ : Shape).Idx → EReal) (P : Fin R) (n : ℕ) : EReal :=
  if h : n < 4096 then x (ix2 P ⟨n, h⟩) else 0

theorem at2_of_lt {R : Nat} (x : (⟨2, ![R, 4096]⟩ : Shape).Idx → EReal) (P : Fin R) (n : ℕ) (h : n < 4096) :
    at2 x P n = x (ix2 P ⟨n, h⟩) := dif_pos h

variable (x : SX.Idx → EReal) (w : SW.Idx → EReal) (b : SB.Idx → EReal) (P : Fin 4096) (Q : Fin 16384)

/-- One term of the contraction at output (P, Q): column n of row P of x times column n of row Q of w. -/
def term (n : ℕ) : EReal := at2 x P n * at2 w Q n

def head : EReal := ∑ n ∈ Finset.range 32, term x w P Q n
def headSq : EReal := ∑ n ∈ Finset.range 32, (at2 x P n * at2 x P n) * (at2 w Q n * at2 w Q n)
def tail : EReal := ∑ n ∈ Finset.range 4064, term x w P Q (32 + n)

/-- The early-exit test on the prefix sums: mean = y1/32, variance = c2/32 − mean², the statistic
    mean / sqrt(max(variance/32, ε)) compared with the bound; 1 where it is below the bound. -/
def stat (y1 c2 : EReal) : BitVec 1 :=
  let mean : EReal := y1 * Ideal.ofBits .f32 0x3D000000#32 * Ideal.ofBits .f32 0x3F800000#32 + Ideal.ofBits .f32 0x00000000#32
  let var : EReal := (c2 * Ideal.ofBits .f32 0x3D000000#32 - mean * mean) * Ideal.ofBits .f32 0x3F800000#32
  Ideal.cmp .olt
    (Ideal.div mean (Ideal.sqrt (max (var * Ideal.ofBits .f32 0x3D000000#32) (Ideal.ofBits .f32 0x2B8CBCCC#32))))
    (Ideal.ofBits .f32 0xC003709F#32)

/-- The layer's output at (P, Q). -/
def Gat : EReal :=
  Scalar.select (stat (head x w P Q) (headSq x w P Q)) (Ideal.ofBits .f32 0x00000000#32)
    (head x w P Q + tail x w P Q + b (ix1 Q))

/-- The layer's output array. -/
def G : SO.Idx → EReal := fun i => Gat x w b ⟨(i 0).val, idx2_lt0 i⟩ ⟨(i 1).val, idx2_lt1 i⟩

theorem G_ix2 : G x w b (ix2 P Q) = Gat x w b P Q := rfl

/-! ## The kernel's arrangement -/

/-- The first block of 1024 columns with its first 32 columns zeroed. -/
def block0 : EReal := ∑ n ∈ Finset.range 1024, (if n < 32 then 0 else at2 x P n) * at2 w Q n
/-- Block j of 1024 columns. -/
def block (j : ℕ) : EReal := ∑ n ∈ Finset.range 1024, term x w P Q (1024 * j + n)

/-- The test's outcome as the number 1 or 0. -/
def maskOf (s : BitVec 1) : EReal := Scalar.select s (Ideal.ofBits .f32 0x3F800000#32) (Ideal.ofBits .f32 0x00000000#32)

/-- The accumulated sum after the blocks 0 … j. -/
def acc : ℕ → EReal
  | 0 => head x w P Q + block0 x w P Q
  | j + 1 => acc j + block x w P Q (j + 1)

/-- What the last step makes of an accumulated sum a, a bias entry and a stored mask value. -/
def finish (a bq mk : EReal) : EReal :=
  Scalar.select (Ideal.cmp .ogt mk (Ideal.ofBits .f32 0x3F000000#32)) (Ideal.ofBits .f32 0x00000000#32) (a + bq)

/-- The kernel's output at (P, Q). -/
def Kat : EReal :=
  finish (acc x w P Q 3) (b (ix1 Q)) (maskOf (stat (head x w P Q) (headSq x w P Q)))

/-- The kernel's output array. -/
def K : SO.Idx → EReal := fun i => Kat x w b ⟨(i 0).val, idx2_lt0 i⟩ ⟨(i 1).val, idx2_lt1 i⟩

theorem K_ix2 : K x w b (ix2 P Q) = Kat x w b P Q := rfl

end Cert.EarlyExit

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.IdealPayloads.lean ====
/-
  The kernel body's stored values read at an index, on the extended reals.

  Each payload is the arithmetic the body performs between its loads and one store, as one pure term over the
  loaded vectors. At output index (p, q) of a [2048, 1024] block:
    the prefix product is the sum over the first 32 columns k of l(p,k) · r(q,k);
    the stored mask is the number 1 or 0 of the z-test on the prefix sum and the prefix sum of squares;
    the first block's product has its first 32 columns zeroed on the left operand;
    a later block's product is added to the accumulator;
    the last step adds the bias row and replaces the sum by 0 where the stored mask exceeds 1/2.
-/
import proofs.«131979_j48679159333253_2_alg».proof.Proof.Gen.KernelIdeal.Skeleton
import proofs.«131979_j48679159333253_2_alg».proof.Proof.Spec
import proofs.«131979_j48679159333253_2_alg».proof.Proof.LibTransposedDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open Idealize.ShloMosaic.TransposedDot

/-- A 32-bit signed comparison of a small number with 32 is the comparison of the numbers. -/
theorem slt_ofNat_32 (k : ℕ) (hk : k < 1024) : (BitVec.ofNat 32 k).slt 32#32 = decide (k < 32) := by
  have hk' : k % 4294967296 = k := Nat.mod_eq_of_lt (by omega)
  have h1 : (BitVec.ofNat 32 k).toInt = (k : ℤ) := by
    rw [BitVec.toInt_eq_toNat_cond, BitVec.toNat_ofNat]
    norm_num [hk']
    omega
  have h2 : (32#32 : BitVec 32).toInt = 32 := by decide
  rw [BitVec.slt, h1, h2]
  exact decide_eq_decide.mpr (by omega)

/-- A select on "column k is below 32", k below 1024, is the `if` on k. -/
theorem select_lt32 {α : Type} (k : ℕ) (hk : k < 1024) (A B : α) :
    Scalar.select (IntOp.cmpi .slt (BitVec.ofNat 32 k) 32#32) A B = if k < 32 then A else B := by
  unfold Scalar.select IntOp.cmpi
  simp only [slt_ofNat_32 k hk]
  by_cases h : k < 32
  · simp [h]
  · simp [h]

/-- The bf16 zero word denotes zero. -/
theorem ofBits_bf16_zero : Ideal.ofBits .bf16 0x0000#16 = 0 := by simp [Ideal.ofBits, Ideal.ieee]

theorem pay3_apply (v15 v50 : FVec Ideal S2048x1024 .f32) (i : S2048x1024.Idx) :
    k0_pay3 (F := Ideal) v15 v50 i = v15 i + v50 i := rfl

theorem pay6_apply (v13 : Vec Ideal S2048x32 .f32) (v14 : Vec Ideal S1024x32 .f32) (p : Fin 2048) (q : Fin 1024) :
    k0_pay6 (F := Ideal) v13 v14 (ix2 p q) = ∑ k : Fin 32, v13 (ix2 p k) * v14 (ix2 q k) :=
  matmul_transposedRhs _ rfl none v13 v14 p q

theorem pay4_apply (v0 : Vec Ideal S2048x1024 .f32) (v2 : Vec Ideal S1024x1024 .f32) (v13 : Vec Ideal S2048x1024 .f32)
    (p : Fin 2048) (q : Fin 1024) :
    k0_pay4 (F := Ideal) v0 v2 v13 (ix2 p q) = v13 (ix2 p q) + ∑ k : Fin 1024, v0 (ix2 p k) * v2 (ix2 q k) := by
  have e1 : shapeCast S2048x1024 v13 shapeCasts_S2048x1024_S2048x1024 = v13 := shapeCast_self v13 _
  have e2 := matmul_transposedRhs dot_S2048x1024_S1024x1024_S2048x1024_1_1_0_0_n_n rfl none
    (k0_pay1 (F := Ideal) v0) (k0_pay2 (F := Ideal) v2) p q
  show shapeCast S2048x1024 v13 shapeCasts_S2048x1024_S2048x1024 (ix2 p q)
      + matmul dot_S2048x1024_S1024x1024_S2048x1024_1_1_0_0_n_n none (k0_pay1 (F := Ideal) v0) (k0_pay2 (F := Ideal) v2)
          (constant S2048x1024 .f32 0x00000000#32) (ix2 p q) = _
  rw [e1, e2]
  rfl

theorem pay5_apply (v13 : Vec Ideal S2048x1024 .f32) (v15 : Vec Ideal S1x1024 .f32) (v19 : Vec Ideal S2048x1024 .f32)
    (p : Fin 2048) (q : Fin 1024) :
    k0_pay5 (F := Ideal) v13 v15 v19 (ix2 p q)
      = Cert.EarlyExit.finish (v13 (ix2 p q)) (v15 (ix2 (0 : Fin 1) q)) (v19 (ix2 p q)) := by
  have e1 : shapeCast S2048x1024 v13 shapeCasts_S2048x1024_S2048x1024 = v13 := shapeCast_self v13 _
  have e2 : shapeCast S1x1024 v15 shapeCasts_S1x1024_S1x1024 = v15 := shapeCast_self v15 _
  have e3 := broadcastTo_1b_ab_apply v15 broadcasts_S1x1024_S2048x1024 p q
  unfold k0_pay5
  rw [e1, e2]
  show Scalar.select _ _ (v13 (ix2 p q) + broadcastTo S2048x1024 v15 broadcasts_S1x1024_S2048x1024 (ix2 p q)) = _
  rw [e3]
  rfl

theorem pay7_apply (v13 : Vec Ideal S2048x32 .f32) (v14 : Vec Ideal S1024x32 .f32) (p : Fin 2048) (q : Fin 1024) :
    k0_pay7 (F := Ideal) v13 v14 (ix2 p q)
      = Cert.EarlyExit.maskOf (Cert.EarlyExit.stat (∑ k : Fin 32, v13 (ix2 p k) * v14 (ix2 q k))
          (∑ k : Fin 32, (v13 (ix2 p k) * v13 (ix2 p k)) * (v14 (ix2 q k) * v14 (ix2 q k)))) := by
  have h1 := matmul_transposedRhs (φ₁ := .f32) (φ₂ := .f32) dot_S2048x32_S1024x32_S2048x1024_1_1_0_0_n_n rfl none v13 v14 p q
  have h2 := matmul_transposedRhs (φ₁ := .f32) (φ₂ := .f32) dot_S2048x32_S1024x32_S2048x1024_1_1_0_0_n_n rfl none
    (mulf (F := Ideal) (φ := .f32) v13 v13) (mulf (F := Ideal) (φ := .f32) v14 v14) p q
  unfold k0_pay7
  rw [shapeCast_self]
  refine Eq.trans ?_ (congrArg₂ (fun a b => Cert.EarlyExit.maskOf (Cert.EarlyExit.stat a b)) h1 h2)
  rfl

theorem pay8_apply (v0 : Vec Ideal S2048x1024 .f32) (v2 : Vec Ideal S1024x1024 .f32) (p : Fin 2048) (q : Fin 1024) :
    k0_pay8 (F := Ideal) (k0_pay1 v0) (k0_pay2 v2) (ix2 p q)
      = ∑ k : Fin 1024, (if k.val < 32 then 0 else v0 (ix2 p k)) * v2 (ix2 q k) := by
  unfold k0_pay8
  refine (matmul_transposedRhs dot_S2048x1024_S1024x1024_S2048x1024_1_1_0_0_n_n rfl none _ _ p q).trans ?_
  refine Finset.sum_congr rfl fun k _ => ?_
  refine congrArg₂ (· * ·) ?_ rfl
  show Scalar.select (IntOp.cmpi .slt (iota .tc S2048x1024 32 [1] iota_S2048x1024_d1_w32 (ix2 p k)) 32#32)
      (Ideal.ofBits .bf16 0x0000#16) (v0 (ix2 p k)) = _
  rw [iota_single_apply, ofBits_bf16_zero]
  exact select_lt32 k.val k.isLt _ _

end Cert.KernelIdeal.Pay

end
-- ==== Proof.IdealValue.lean ====
/-
  The idealized kernel's result array as one function of its argument arrays.

  Point t = 4·(16·i + j) + k works on rows 2048·i … of x, rows 1024·j … of w (columns of the output) and
  columns 1024·k … of both. By induction on the point, at entry (p, q) of the block — entry (P, Q) of the
  output, P = 2048·i + p, Q = 1024·j + q — the mask holds the test's outcome on the prefix sums at (P, Q)
  from k = 0 on, the accumulator holds head + block 0 + … + block k for k < 3, and after k = 3 the block
  holds the kernel's value at (P, Q). Only the points with k = 3 write their block back, and those 32
  blocks tile the output.
-/
import proofs.«131979_j48679159333253_2_alg».proof.Proof.IdealPieces
import proofs.«131979_j48679159333253_2_alg».proof.Proof.IdealPayloads
import proofs.«131979_j48679159333253_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)
open Cert.EarlyExit

/-! ## Sums over a block's columns as the specification's sums -/

section Sums
variable (X : SX.Idx → EReal) (W : SW.Idx → EReal) (P : Fin 4096) (Q : Fin 16384)

theorem sum_block (j : ℕ) (x0 : Vec Ideal S2048x1024 .f32) (w0 : Vec Ideal S1024x1024 .f32) (p : Fin 2048) (q : Fin 1024)
    (hx : ∀ k : Fin 1024, x0 (ix2 p k) = at2 X P (1024 * j + k.val)) (hw : ∀ k : Fin 1024, w0 (ix2 q k) = at2 W Q (1024 * j + k.val)) :
    ∑ k : Fin 1024, x0 (ix2 p k) * w0 (ix2 q k) = block X W P Q j := by
  unfold block term
  rw [← Fin.sum_univ_eq_sum_range (fun n => at2 X P (1024 * j + n) * at2 W Q (1024 * j + n)) 1024]
  exact Finset.sum_congr rfl fun k _ => by rw [hx k, hw k]

theorem sum_block0 (x0 : Vec Ideal S2048x1024 .f32) (w0 : Vec Ideal S1024x1024 .f32) (p : Fin 2048) (q : Fin 1024)
    (hx : ∀ k : Fin 1024, x0 (ix2 p k) = at2 X P k.val) (hw : ∀ k : Fin 1024, w0 (ix2 q k) = at2 W Q k.val) :
    ∑ k : Fin 1024, (if k.val < 32 then 0 else x0 (ix2 p k)) * w0 (ix2 q k) = block0 X W P Q := by
  unfold block0
  rw [← Fin.sum_univ_eq_sum_range (fun n => (if n < 32 then 0 else at2 X P n) * at2 W Q n) 1024]
  exact Finset.sum_congr rfl fun k _ => by rw [hx k, hw k]

theorem sum_head (xh : Vec Ideal S2048x32 .f32) (wh : Vec Ideal S1024x32 .f32) (p : Fin 2048) (q : Fin 1024)
    (hx : ∀ k : Fin 32, xh (ix2 p k) = at2 X P k.val) (hw : ∀ k : Fin 32, wh (ix2 q k) = at2 W Q k.val) :
    ∑ k : Fin 32, xh (ix2 p k) * wh (ix2 q k) = head X W P Q := by
  unfold head term
  rw [← Fin.sum_univ_eq_sum_range (fun n => at2 X P n * at2 W Q n) 32]
  exact Finset.sum_congr rfl fun k _ => by rw [hx k, hw k]

theorem sum_headSq (xh : Vec Ideal S2048x32 .f32) (wh : Vec Ideal S1024x32 .f32) (p : Fin 2048) (q : Fin 1024)
    (hx : ∀ k : Fin 32, xh (ix2 p k) = at2 X P k.val) (hw : ∀ k : Fin 32, wh (ix2 q k) = at2 W Q k.val) :
    ∑ k : Fin 32, (xh (ix2 p k) * xh (ix2 p k)) * (wh (ix2 q k) * wh (ix2 q k)) = headSq X W P Q := by
  unfold headSq
  rw [← Fin.sum_univ_eq_sum_range (fun n => (at2 X P n * at2 X P n) * (at2 W Q n * at2 W Q n)) 32]
  exact Finset.sum_congr rfl fun k _ => by rw [hx k, hw k]

end Sums

/-- The leading columns of a block are the block's, at the same coordinates. -/
theorem headX_apply (x0 : Vec Ideal S2048x1024 .f32) (p : Fin 2048) (k : Fin 32) :
    headX x0 (ix2 p k) = x0 (ix2 p ⟨k.val, by have := k.isLt; omega⟩) := by
  show x0 _ = x0 _
  refine congrArg x0 (funext fun a => Fin.ext ?_)
  match a with
  | ⟨0, _⟩ => show 0 + 1 * p.val = p.val; omega
  | ⟨1, _⟩ => show 0 + 1 * k.val = k.val; omega
theorem headW_apply (w0 : Vec Ideal S1024x1024 .f32) (q : Fin 1024) (k : Fin 32) :
    headW w0 (ix2 q k) = w0 (ix2 q ⟨k.val, by have := k.isLt; omega⟩) := by
  show w0 _ = w0 _
  refine congrArg w0 (funext fun a => Fin.ext ?_)
  match a with
  | ⟨0, _⟩ => show 0 + 1 * q.val = q.val; omega
  | ⟨1, _⟩ => show 0 + 1 * k.val = k.val; omega

variable (m : (ℓ : Loc nD τ sig) → Buf (Elt Ideal) ℓ) (ρ : Dev nD → PrngReg)

/-! ## The argument arrays and the blocks read off them -/

abbrev argX (c : Dev nD) : SX.Idx → EReal := m ((c.tc : Thread nD τ).loc main_arg0)
abbrev argW (c : Dev nD) : SW.Idx → EReal := m ((c.tc : Thread nD τ).loc main_arg1)
abbrev argB (c : Dev nD) : SB.Idx → EReal := m ((c.tc : Thread nD τ).loc main_arg2)

/-- The printed index maps over the grid: t = 4·(16·i + j) + k. -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = 0 ∧ win0_2.index t (1 : Fin 2) = t.val / 4 % 16
    ∧ win0_3.index t (0 : Fin 2) = t.val / 64 ∧ win0_3.index t (1 : Fin 2) = t.val / 4 % 16 :=
  (by decide +kernel : ∀ t : Fin grid0.N, _)

theorem blkX (c : Dev nD) (t : Fin cfg0.N) (p : Fin 2048) (k : Fin 1024) (P : Fin 4096) (hP : P.val = 2048 * (t.val / 64) + p.val) :
    (iblk m c 0 t : Vec Ideal S2048x1024 .f32) (ix2 p k) = at2 (argX m c) P (1024 * (t.val % 4) + k.val) := by
  have hk : 1024 * (t.val % 4) + k.val < 4096 := by have := k.isLt; omega
  rw [at2_of_lt _ _ _ hk]
  unfold iblk
  rw [View.read_apply]
  show V m c main_arg0 _ = _
  rw [V_main_arg0 m c]
  refine congrArg (m ((c : Thread nD τ).loc main_arg0)) (funext fun a => Fin.ext ?_)
  obtain ⟨e0, e1, -⟩ := idx_facts t
  match a with
  | ⟨0, _⟩ => show win0_0.index t (0 : Fin 2) * 2048 + 1 * p.val = P.val; rw [e0, hP]; omega
  | ⟨1, _⟩ => show win0_0.index t (1 : Fin 2) * 1024 + 1 * k.val = 1024 * (t.val % 4) + k.val; rw [e1]; omega

theorem blkW (c : Dev nD) (t : Fin cfg0.N) (q : Fin 1024) (k : Fin 1024) (Q : Fin 16384) (hQ : Q.val = 1024 * (t.val / 4 % 16) + q.val) :
    (iblk m c 1 t : Vec Ideal S1024x1024 .f32) (ix2 q k) = at2 (argW m c) Q (1024 * (t.val % 4) + k.val) := by
  have hk : 1024 * (t.val % 4) + k.val < 4096 := by have := k.isLt; omega
  rw [at2_of_lt _ _ _ hk]
  unfold iblk
  rw [View.read_apply]
  show V m c main_arg1 _ = _
  rw [V_main_arg1 m c]
  refine congrArg (m ((c : Thread nD τ).loc main_arg1)) (funext fun a => Fin.ext ?_)
  obtain ⟨-, -, e2, e3, -⟩ := idx_facts t
  match a with
  | ⟨0, _⟩ => show win0_1.index t (0 : Fin 2) * 1024 + 1 * q.val = Q.val; rw [e2, hQ]; omega
  | ⟨1, _⟩ => show win0_1.index t (1 : Fin 2) * 1024 + 1 * k.val = 1024 * (t.val % 4) + k.val; rw [e3]; omega

/-- The bias row the region finds is the bias vector with a unit axis in front. -/
theorem V_bias (c : Dev nD) :
    (V m c main_v0 : S1x16384.Idx → EReal) = shapeCast S1x16384 (argB m c) shapeCasts_S16384_S1x16384 := by
  dsimp only [V, hostOps0]; after_results; rfl

theorem blkB (c : Dev nD) (t : Fin cfg0.N) (q : Fin 1024) (Q : Fin 16384) (hQ : Q.val = 1024 * (t.val / 4 % 16) + q.val) :
    (iblk m c 2 t : Vec Ideal S1x1024 .f32) (ix2 (0 : Fin 1) q) = argB m c (ix1 Q) := by
  unfold iblk
  rw [View.read_apply]
  show (V m c main_v0 : S1x16384.Idx → EReal) _ = _
  rw [V_bias m c, shapeCast_addUnit_apply]
  refine congrArg (argB m c) (funext fun a => Fin.ext ?_)
  obtain ⟨-, -, -, -, -, e5, -⟩ := idx_facts t
  match a with
  | ⟨0, _⟩ => show win0_2.index t (1 : Fin 2) * 1024 + 1 * q.val = Q.val; rw [e5, hQ]; omega

/-! ## The invariant over the points -/

section Inv
variable (c : Dev nD)

/-- What holds of the pair (output block, mask) after the body at position n, at entry (p, q) = (P, Q). -/
def Holds (n : ℕ) (hn : n < cfg0.N) (p : Fin 2048) (q : Fin 1024) (P : Fin 4096) (Q : Fin 16384) : Prop :=
  (stateAt m c n hn).2 (ix2 p q) = maskOf (stat (head (argX m c) (argW m c) P Q) (headSq (argX m c) (argW m c) P Q))
  ∧ (n % 4 = 3 → (stateAt m c n hn).1 (ix2 p q) = Kat (argX m c) (argW m c) (argB m c) P Q)
  ∧ (¬n % 4 = 3 → (stateAt m c n hn).1 (ix2 p q) = acc (argX m c) (argW m c) P Q (n % 4))

theorem holds_A (t : Fin cfg0.N) (h0 : t.val % 4 = 0) (p : Fin 2048) (q : Fin 1024) (P : Fin 4096) (Q : Fin 16384)
    (hP : P.val = 2048 * (t.val / 64) + p.val) (hQ : Q.val = 1024 * (t.val / 4 % 16) + q.val) :
    Holds m c t.val t.isLt p q P Q := by
  have hx : ∀ k : Fin 1024, (iblk m c 0 t : Vec Ideal S2048x1024 .f32) (ix2 p k) = at2 (argX m c) P k.val := fun k => by
    rw [blkX m c t p k P hP, h0, Nat.mul_zero, Nat.zero_add]
  have hw : ∀ k : Fin 1024, (iblk m c 1 t : Vec Ideal S1024x1024 .f32) (ix2 q k) = at2 (argW m c) Q k.val := fun k => by
    rw [blkW m c t q k Q hQ, h0, Nat.mul_zero, Nat.zero_add]
  have hxh : ∀ k : Fin 32, headX (iblk m c 0 t : Vec Ideal S2048x1024 .f32) (ix2 p k) = at2 (argX m c) P k.val := fun k => by
    rw [headX_apply, hx]
  have hwh : ∀ k : Fin 32, headW (iblk m c 1 t : Vec Ideal S1024x1024 .f32) (ix2 q k) = at2 (argW m c) Q k.val := fun k => by
    rw [headW_apply, hw]
  unfold Holds
  rw [stateAt_A m c t h0]
  refine ⟨?_, fun h3 => absurd h3 (by omega), fun _ => ?_⟩
  · dsimp only
    refine (congrFun (maskA_eq c (grid0.coords t) (ms0 t) (hs0 t) (ms1 t) (hs1 t) (ms2 t) (hs2 t) (ms3 t) (hs3 t) scM (Memref.isWhole_whole _) (iblk m c 0 t) (iblk m c 1 t) _ _ _) (ix2 p q)).trans ?_
    refine (Pay.pay7_apply (headX (iblk m c 0 t)) (headW (iblk m c 1 t)) p q).trans ?_
    rw [sum_head (argX m c) (argW m c) P Q _ _ p q hxh hwh, sum_headSq (argX m c) (argW m c) P Q _ _ p q hxh hwh]
  · dsimp only
    refine (congrFun (outA_eq c (grid0.coords t) (ms0 t) (hs0 t) (ms1 t) (hs1 t) (ms2 t) (hs2 t) (ms3 t) (hs3 t) scM (Memref.isWhole_whole _) (iblk m c 0 t) (iblk m c 1 t) _ _ _) (ix2 p q)).trans ?_
    refine (Pay.pay3_apply _ _ (ix2 p q)).trans ?_
    rw [Pay.pay6_apply (headX (iblk m c 0 t)) (headW (iblk m c 1 t)) p q, Pay.pay8_apply (iblk m c 0 t) (iblk m c 1 t) p q,
      sum_head (argX m c) (argW m c) P Q _ _ p q hxh hwh, sum_block0 (argX m c) (argW m c) P Q _ _ p q hx hw, h0]
    rfl

theorem holds_B (t : Fin cfg0.N) (h0 : ¬t.val % 4 = 0) (h3 : ¬t.val % 4 = 3) (p : Fin 2048) (q : Fin 1024) (P : Fin 4096) (Q : Fin 16384)
    (hP : P.val = 2048 * (t.val / 64) + p.val) (hQ : Q.val = 1024 * (t.val / 4 % 16) + q.val)
    (ih : Holds m c (t.val - 1) (Nat.lt_of_le_of_lt (Nat.sub_le _ _) t.isLt) p q P Q) :
    Holds m c t.val t.isLt p q P Q := by
  have hx : ∀ k : Fin 1024, (iblk m c 0 t : Vec Ideal S2048x1024 .f32) (ix2 p k) = at2 (argX m c) P (1024 * (t.val % 4) + k.val) :=
    fun k => blkX m c t p k P hP
  have hw : ∀ k : Fin 1024, (iblk m c 1 t : Vec Ideal S1024x1024 .f32) (ix2 q k) = at2 (argW m c) Q (1024 * (t.val % 4) + k.val) :=
    fun k => blkW m c t q k Q hQ
  obtain ⟨ihm, -, iha⟩ := ih
  have hprev : ¬(t.val - 1) % 4 = 3 := by omega
  have hstep : (t.val - 1) % 4 + 1 = t.val % 4 := by omega
  unfold Holds
  rw [stateAt_B m c t h0 h3]
  refine ⟨?_, fun h => absurd h h3, fun _ => ?_⟩
  · exact ihm
  · dsimp only
    refine (congrFun (outB_eq c (grid0.coords t) (ms0 t) (hs0 t) (ms1 t) (hs1 t) (ms2 t) (hs2 t) (ms3 t) (hs3 t) scM (Memref.isWhole_whole _) (iblk m c 0 t) (iblk m c 1 t) (prevAt m c t).1 _ _ _) (ix2 p q)).trans ?_
    refine (Pay.pay4_apply (iblk m c 0 t) (iblk m c 1 t) (prevAt m c t).1 p q).trans ?_
    rw [sum_block (argX m c) (argW m c) P Q (t.val % 4) _ _ p q hx hw, iha hprev, ← hstep]
    rfl

theorem holds_C (t : Fin cfg0.N) (h0 : ¬t.val % 4 = 0) (h3 : t.val % 4 = 3) (p : Fin 2048) (q : Fin 1024) (P : Fin 4096) (Q : Fin 16384)
    (hP : P.val = 2048 * (t.val / 64) + p.val) (hQ : Q.val = 1024 * (t.val / 4 % 16) + q.val)
    (ih : Holds m c (t.val - 1) (Nat.lt_of_le_of_lt (Nat.sub_le _ _) t.isLt) p q P Q) :
    Holds m c t.val t.isLt p q P Q := by
  have hx : ∀ k : Fin 1024, (iblk m c 0 t : Vec Ideal S2048x1024 .f32) (ix2 p k) = at2 (argX m c) P (1024 * (t.val % 4) + k.val) :=
    fun k => blkX m c t p k P hP
  have hw : ∀ k : Fin 1024, (iblk m c 1 t : Vec Ideal S1024x1024 .f32) (ix2 q k) = at2 (argW m c) Q (1024 * (t.val % 4) + k.val) :=
    fun k => blkW m c t q k Q hQ
  obtain ⟨ihm, -, iha⟩ := ih
  have hprev : ¬(t.val - 1) % 4 = 3 := by omega
  have hpm : (t.val - 1) % 4 = 2 := by omega
  unfold Holds
  rw [stateAt_C m c t h0 h3]
  refine ⟨?_, fun _ => ?_, fun h => absurd h3 h⟩
  · exact ihm
  · dsimp only
    refine (congrFun (outC_eq c (grid0.coords t) (ms0 t) (hs0 t) (ms1 t) (hs1 t) (ms2 t) (hs2 t) (ms3 t) (hs3 t) scM (Memref.isWhole_whole _) (iblk m c 0 t) (iblk m c 1 t) (iblk m c 2 t) (prevAt m c t).1 (prevAt m c t).2 _ _ _) (ix2 p q)).trans ?_
    refine (Pay.pay5_apply (k0_pay4 (iblk m c 0 t) (iblk m c 1 t) (prevAt m c t).1) (iblk m c 2 t) (prevAt m c t).2 p q).trans ?_
    rw [Pay.pay4_apply (iblk m c 0 t) (iblk m c 1 t) (prevAt m c t).1 p q, sum_block (argX m c) (argW m c) P Q (t.val % 4) _ _ p q hx hw,
      iha hprev, ihm, blkB m c t q Q hQ, hpm, h3]
    rfl

/-- The invariant, at every point. -/
theorem holds : ∀ (n : ℕ) (hn : n < cfg0.N) (p : Fin 2048) (q : Fin 1024) (P : Fin 4096) (Q : Fin 16384),
    P.val = 2048 * (n / 64) + p.val → Q.val = 1024 * (n / 4 % 16) + q.val → Holds m c n hn p q P Q
  | 0, hn, p, q, P, Q, hP, hQ => holds_A m c ⟨0, hn⟩ rfl p q P Q hP hQ
  | n + 1, hn, p, q, P, Q, hP, hQ => by
    by_cases h0 : (n + 1) % 4 = 0
    · exact holds_A m c ⟨n + 1, hn⟩ h0 p q P Q hP hQ
    · have ih : Holds m c n (Nat.lt_of_succ_lt hn) p q P Q :=
        holds n (Nat.lt_of_succ_lt hn) p q P Q (by omega) (by omega)
      by_cases h3 : (n + 1) % 4 = 3
      · exact holds_C m c ⟨n + 1, hn⟩ h0 h3 p q P Q hP hQ ih
      · exact holds_B m c ⟨n + 1, hn⟩ h0 h3 p q P Q hP hQ ih

end Inv

end Cert.KernelIdeal.Body

end
-- ==== Proof.IdealResult.lean ====
/-
  The idealized kernel's run with its result named: after @main the result array holds, at every index,
  the kernel's arrangement `K` of the layer over the argument arrays, and the arguments are unchanged.

  A point with k = 3 writes back its block, which by the invariant holds `K` at the block's entries; the
  point 64·i + 4·j + 3 covers the entries with rows 2048·i … and columns 1024·j …, so the 32 written
  blocks cover the array.
-/
import proofs.«131979_j48679159333253_2_alg».proof.Proof.IdealValue

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)
open Cert.EarlyExit

variable (m : (ℓ : Loc nD τ sig) → Buf (Elt Ideal) ℓ) (ρ : Dev nD → PrngReg)

/-- The result array. -/
abbrev result (c : Dev nD) : Buf (Elt Ideal) ((c : Thread nD τ).loc main_v1) := K (argX m c) (argW m c) (argB m c)

/-- Entry j of the block a point with k = 3 leaves is the result at the entry's place in the array. -/
theorem left_at (c : Dev nD) (t : Fin cfg0.N) (h3 : t.val % 4 = 3) (j : S2048x1024.Idx) :
    (stateAt m c t.val t.isLt).1 j = result m c (((cfg0.win 3).blk t).view.emb j) := by
  obtain ⟨p, q, rfl⟩ : ∃ (p : Fin 2048) (q : Fin 1024), j = ix2 p q := ⟨j 0, j 1, eq_ix2 j⟩
  have hN : t.val < 128 := lt_of_lt_of_eq t.isLt (show cfg0.N = 128 from N_0)
  obtain ⟨-, -, -, -, -, -, e6, e7⟩ := idx_facts t
  have hp : p.val < 2048 := p.isLt
  have hq : q.val < 1024 := q.isLt
  have hemb : ((cfg0.win 3).blk t).view.emb (ix2 p q)
      = ix2 (⟨2048 * (t.val / 64) + p.val, by omega⟩ : Fin 4096) (⟨1024 * (t.val / 4 % 16) + q.val, by omega⟩ : Fin 16384) :=
    funext fun a => Fin.ext (by
      match a with
      | ⟨0, _⟩ => show win0_3.index t (0 : Fin 2) * 2048 + 1 * p.val = 2048 * (t.val / 64) + p.val; rw [e6]; omega
      | ⟨1, _⟩ => show win0_3.index t (1 : Fin 2) * 1024 + 1 * q.val = 1024 * (t.val / 4 % 16) + q.val; rw [e7]; omega)
  rw [hemb]
  show _ = K (argX m c) (argW m c) (argB m c) (ix2 _ _)
  rw [K_ix2]
  exact (holds m c t.val t.isLt p q _ _ rfl rfl).2.1 h3

/-- What a write-back writes is the result read through the point's block. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  show (cfg0.win 3).cut (grid0.coords t) ((dats m 0 c).after 3 t) = _
  rw [after_3]
  funext j
  exact left_at m c t h3 j

theorem mem_blk3 (t : Fin cfg0.N) (i : S4096x16384.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1).slice (win0_3.rect t)).set ↔ _
  rw [View.set_slice_whole, Rect.mem_set_unit]
  exact Iff.rfl

/-- Every index of the result lies in the block of a point that writes back. -/
theorem covered (i : S4096x16384.Idx) : ∃ t : Fin cfg0.N, (cfg0.win 3).flush t = true ∧ i ∈ ((cfg0.win 3).blk t).view.set := by
  have hi0 : (i 0).val < 4096 := idx2_lt0 i
  have hi1 : (i 1).val < 16384 := idx2_lt1 i
  have hN : cfg0.N = 128 := N_0
  have ht : 64 * ((i 0).val / 2048) + 4 * ((i 1).val / 1024) + 3 < cfg0.N := by rw [hN]; omega
  refine ⟨⟨64 * ((i 0).val / 2048) + 4 * ((i 1).val / 1024) + 3, ht⟩, (flush0_3 _).mpr (by dsimp only; omega), ?_⟩
  rw [mem_blk3]
  obtain ⟨-, -, -, -, -, -, e6, e7⟩ := idx_facts ⟨64 * ((i 0).val / 2048) + 4 * ((i 1).val / 1024) + 3, ht⟩
  dsimp only at e6 e7
  intro a
  match a with
  | ⟨0, _⟩ =>
    show win0_3.index _ (0 : Fin 2) * 2048 ≤ (i 0).val ∧ (i 0).val < win0_3.index _ (0 : Fin 2) * 2048 + 2048
    rw [e6]; omega
  | ⟨1, _⟩ =>
    show win0_3.index _ (1 : Fin 2) * 1024 ≤ (i 1).val ∧ (i 1).val < win0_3.index _ (1 : Fin 2) * 1024 + 1024
    rw [e7]; omega

/-- So the result array ends holding `K` of the arguments. -/
theorem final (c : Dev nD) : (dats m 0 c).arrAt 3 cfg0.N = result m c :=
  (dats m 0 c).arrAt_eq_of_cover 3 (result m c) (flushed_eq m c) covered

/-- The run, read: the result array at `K` of the argument arrays, the arguments unchanged. -/
theorem kernel_run : θ_run defs (onTc (τ := τ) (main (F := Ideal))) ⟨m, fun _ => 0, ρ⟩ fun r => ∀ c : Dev nD,
      r.2.mem ((c.tc : Thread nD τ).loc main_v1) = K (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Body

end
-- ==== Proof.KernelForm.lean ====
/-
  The kernel's arrangement of the early-exit linear layer equals the layer itself, on the extended reals.

  Two facts: reading back a stored 1 or 0 by a comparison with 1/2 recovers the bit it was made from;
  and the four blocks of 1024 columns, the first with its first 32 columns zeroed, added to the head sum
  one at a time, make the head sum plus the sum of the remaining 4064 columns.
-/
import proofs.«131979_j48679159333253_2_alg».proof.Proof.Spec

noncomputable section

open scoped BigOperators

namespace Cert.EarlyExit

open Idealize.ShloMosaic Idealize.ShloMosaic.ValueIdx

/-! ## The three words -/

theorem word_one : Ideal.ofBits .f32 0x3F800000#32 = 1 := by
  simp [Ideal.ofBits, Ideal.ieee, -EReal.coe_mul]; norm_num

theorem word_zero : Ideal.ofBits .f32 0x00000000#32 = 0 := by
  simp [Ideal.ofBits, Ideal.ieee]

theorem word_half : Ideal.ofBits .f32 0x3F000000#32 = ((1 / 2 : ℝ) : EReal) := by
  simp [Ideal.ofBits, Ideal.ieee, -EReal.coe_mul]; norm_num

/-! ## Reading the stored mask back -/

/-- 1 > 1/2 and not 0 > 1/2: the comparison with 1/2 returns the bit the mask was made from. -/
theorem finish_maskOf (a bq : EReal) (s : BitVec 1) :
    finish a bq (maskOf s) = Scalar.select s (Ideal.ofBits .f32 0x00000000#32) (a + bq) := by
  by_cases hs : s = 1#1
  · subst hs
    have h : Ideal.cmp .ogt (Ideal.ofBits .f32 0x3F800000#32) (Ideal.ofBits .f32 0x3F000000#32) = 1#1 := by
      rw [word_one, word_half]
      have : ((1 / 2 : ℝ) : EReal) < 1 := by
        have : ((1 / 2 : ℝ) : EReal) < ((1 : ℝ) : EReal) := EReal.coe_lt_coe_iff.mpr (by norm_num)
        simpa using this
      show BitVec.ofBool (decide (((1 / 2 : ℝ) : EReal) < 1)) = 1#1
      rw [decide_eq_true this]; rfl
    unfold finish maskOf
    rw [select_one, h]
  · have hz := eq_zero_of_ne_one hs
    subst hz
    have h : Ideal.cmp .ogt (Ideal.ofBits .f32 0x00000000#32) (Ideal.ofBits .f32 0x3F000000#32) = 0#1 := by
      rw [word_zero, word_half]
      have : ¬ (((1 / 2 : ℝ) : EReal) < 0) := by
        have : ¬ (((1 / 2 : ℝ) : EReal) < ((0 : ℝ) : EReal)) := by
          rw [EReal.coe_lt_coe_iff]; norm_num
        simpa using this
      show BitVec.ofBool (decide (((1 / 2 : ℝ) : EReal) < 0)) = 0#1
      rw [decide_eq_false this]; rfl
    unfold finish maskOf
    rw [select_zero, h]

/-! ## The blocks make the tail -/

/-- The first block, its first 32 columns zeroed, is the sum of columns 32 … 1023. -/
theorem block0_eq (x : SX.Idx → EReal) (w : SW.Idx → EReal) (P : Fin 4096) (Q : Fin 16384) :
    block0 x w P Q = ∑ n ∈ Finset.range 992, term x w P Q (32 + n) := by
  unfold block0
  have h : (1024 : ℕ) = 32 + 992 := by norm_num
  rw [h, Finset.sum_range_add]
  have h0 : ∑ n ∈ Finset.range 32, (if n < 32 then 0 else at2 x P n) * at2 w Q n = 0 := by
    refine Finset.sum_eq_zero ?_
    intro n hn
    rw [if_pos (Finset.mem_range.mp hn), zero_mul]
  rw [h0, zero_add]
  refine Finset.sum_congr rfl ?_
  intro n _
  rw [if_neg (by omega)]
  rfl

/-- The sum of columns 32 … 4095 in four consecutive stretches. -/
theorem tail_split (x : SX.Idx → EReal) (w : SW.Idx → EReal) (P : Fin 4096) (Q : Fin 16384) :
    tail x w P Q = ∑ n ∈ Finset.range 992, term x w P Q (32 + n) + block x w P Q 1 + block x w P Q 2
      + block x w P Q 3 := by
  have key : ∀ f : ℕ → EReal, ∑ n ∈ Finset.range 4064, f (32 + n)
      = ∑ n ∈ Finset.range 992, f (32 + n) + ∑ n ∈ Finset.range 1024, f (1024 * 1 + n)
        + ∑ n ∈ Finset.range 1024, f (1024 * 2 + n) + ∑ n ∈ Finset.range 1024, f (1024 * 3 + n) := by
    intro f
    have h : (4064 : ℕ) = 992 + 1024 + 1024 + 1024 := by norm_num
    rw [h, Finset.sum_range_add, Finset.sum_range_add, Finset.sum_range_add]
    have a1 : ∀ n, 32 + (992 + n) = 1024 * 1 + n := by intro n; omega
    have a2 : ∀ n, 32 + (992 + 1024 + n) = 1024 * 2 + n := by intro n; omega
    have a3 : ∀ n, 32 + (992 + 1024 + 1024 + n) = 1024 * 3 + n := by intro n; omega
    simp only [a1, a2, a3]
  exact key (term x w P Q)

theorem acc3_eq (x : SX.Idx → EReal) (w : SW.Idx → EReal) (P : Fin 4096) (Q : Fin 16384) :
    acc x w P Q 3 = head x w P Q + tail x w P Q := by
  show head x w P Q + block0 x w P Q + block x w P Q 1 + block x w P Q 2 + block x w P Q 3
    = head x w P Q + tail x w P Q
  rw [tail_split, block0_eq]
  simp only [add_assoc]

/-! ## The two arrays are equal -/

theorem K_eq_G (x : SX.Idx → EReal) (w : SW.Idx → EReal) (b : SB.Idx → EReal) : K x w b = G x w b := by
  funext i
  unfold K G Kat Gat
  rw [finish_maskOf, acc3_eq]

end Cert.EarlyExit

end
-- ==== Proof.RefValue.lean ====
/-
  The reference program's result, read at an index, is the early-exit layer `G` of the specification.

  At output (P, Q): the three contractions are the sums `head`, `headSq`, `tail` of the specification
  (the slices read columns n and 32 + n of the arguments, a contraction over the last axis of both
  operands is the sum over that axis of the products), the scalar constants spread over the output read
  as themselves, the bias spread over the rows reads b(Q), and the remaining operations act entrywise.
-/
import proofs.«131979_j48679159333253_2_alg».proof.Proof.Gen.ReferenceIdeal.Read
import proofs.«131979_j48679159333253_2_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read Cert.EarlyExit

variable (x : FVec Ideal S4096x4096 .f32) (w : FVec Ideal S16384x4096 .f32) (b : FVec Ideal S16384 .f32)
  (P : Fin 4096) (Q : Fin 16384)

/-- The first contraction at (P, Q) is the sum over the first 32 columns. -/
theorem v2_ix2 : val_main_v2 (F := Ideal) x w (ix2 P Q) = head x w P Q := by
  rw [val_main_v2_apply]
  refine Eq.trans ?_ (Fin.sum_univ_eq_sum_range (fun n => term x w P Q n) 32)
  refine Finset.sum_congr rfl fun k _ => ?_
  rw [val_main_v0_apply, val_main_v1_apply]
  show _ = at2 x P k.val * at2 w Q k.val
  rw [at2_of_lt x P k.val (by have := k.isLt; omega), at2_of_lt w Q k.val (by have := k.isLt; omega)]
  congr 1
  · exact congrArg x (funext fun a => match a with | ⟨0, _⟩ => rfl | ⟨1, _⟩ => rfl)
  · exact congrArg w (funext fun a => match a with | ⟨0, _⟩ => rfl | ⟨1, _⟩ => rfl)

/-- The contraction of the squares at (P, Q) is the sum of the squared products over the first 32 columns. -/
theorem v5_ix2 : val_main_v5 (F := Ideal) x w (ix2 P Q) = headSq x w P Q := by
  rw [val_main_v5_apply]
  refine Eq.trans ?_ (Fin.sum_univ_eq_sum_range (fun n => (at2 x P n * at2 x P n) * (at2 w Q n * at2 w Q n)) 32)
  refine Finset.sum_congr rfl fun k _ => ?_
  rw [val_main_v3_apply, val_main_v4_apply, val_main_v0_apply, val_main_v1_apply]
  show _ = (at2 x P k.val * at2 x P k.val) * (at2 w Q k.val * at2 w Q k.val)
  rw [at2_of_lt x P k.val (by have := k.isLt; omega), at2_of_lt w Q k.val (by have := k.isLt; omega)]
  have ex : idx_main_v0 (lidx_main_v5 (ix2 P Q) k) = ix2 P ⟨k.val, by have := k.isLt; omega⟩ :=
    funext fun a => match a with | ⟨0, _⟩ => rfl | ⟨1, _⟩ => rfl
  have ew : idx_main_v1 (ridx_main_v5 (ix2 P Q) k) = ix2 Q ⟨k.val, by have := k.isLt; omega⟩ :=
    funext fun a => match a with | ⟨0, _⟩ => rfl | ⟨1, _⟩ => rfl
  rw [ex, ew]
  rfl

/-- The last contraction at (P, Q) is the sum over the columns 32 … 4095. -/
theorem v28_ix2 : val_main_v28 (F := Ideal) x w (ix2 P Q) = tail x w P Q := by
  rw [val_main_v28_apply]
  refine Eq.trans ?_ (Fin.sum_univ_eq_sum_range (fun n => term x w P Q (32 + n)) 4064)
  refine Finset.sum_congr rfl fun k _ => ?_
  rw [val_main_v26_apply, val_main_v27_apply]
  show _ = at2 x P (32 + k.val) * at2 w Q (32 + k.val)
  rw [at2_of_lt x P (32 + k.val) (by have := k.isLt; omega), at2_of_lt w Q (32 + k.val) (by have := k.isLt; omega)]
  congr 1
  · exact congrArg x (funext fun a => match a with | ⟨0, _⟩ => rfl | ⟨1, _⟩ => rfl)
  · exact congrArg w (funext fun a => match a with | ⟨0, _⟩ => rfl | ⟨1, _⟩ => rfl)

/-- The bias spread over the rows reads b(Q) at (P, Q). -/
theorem v31_ix2 : val_main_v31 (F := Ideal) b (ix2 P Q) = b (ix1 Q) := by
  rw [val_main_v31_apply, val_main_v30_apply]
  exact congrArg b (funext fun a => match a with | ⟨0, _⟩ => rfl)

/-- The reference's last stage at (P, Q). -/
theorem v33_ix2 : val_main_v33 (F := Ideal) x w b (ix2 P Q) = Gat x w b P Q := by
  rw [val_main_v33_apply, val_main_v32_apply, val_main_v29_apply, val_main_v25_apply, val_main_v23_apply,
    val_main_v22_apply, val_main_v21_apply, val_main_v19_apply, val_main_v17_apply, val_main_v15_apply,
    val_main_v14_apply, val_main_v13_apply, val_main_v11_apply, val_main_v9_apply, val_main_v7_apply,
    val_main_v6_apply, val_main_v8_apply, val_main_v10_apply, val_main_v12_apply, val_main_v16_apply,
    val_main_v18_apply, val_main_v20_apply, val_main_v24_apply, val_main_call0_v0_apply,
    v2_ix2, v5_ix2, v28_ix2, v31_ix2]
  rfl

/-- The reference's last stage is the layer `G`. -/
theorem ref_eq : val_main_v33 (F := Ideal) x w b = G x w b := by
  funext i
  obtain ⟨P, Q, rfl⟩ : ∃ (P : Fin 4096) (Q : Fin 16384), i = ix2 P Q :=
    ⟨⟨(i 0).val, idx2_lt0 i⟩, ⟨(i 1).val, idx2_lt1 i⟩, eq_ix2 i⟩
  exact (v33_ix2 x w b P Q).trans (G_ix2 x w b P Q).symm

/-- Every weakly fair execution of the reference from any memory with zero counters terminates with its
    result holding `G` of the arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = Cert.EarlyExit.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨((h c).1.trans (val_main_v33_eq _ _ _)).trans (ref_eq _ _ _), (h c).2⟩)
    (Cert.ReferenceIdeal.Value.run (F := Ideal) m ρ)

end Cert.ReferenceIdeal.RefValue

end
-- ==== Proof.lean ====
/-
  An early-exit linear layer: y = x · wᵀ + b over x : [4096, 4096], w : [16384, 4096], b : [16384], with
  an output entry replaced by 0 where a z-test on the first 32 columns' partial sums falls below a bound.

  The reference computes the prefix product over the first 32 columns, the statistic from it and from the
  product of the squares, the tail product over the other 4064 columns, and selects. The kernel walks a
  (2, 16, 4) grid with the contraction axis innermost: at k = 0 it computes the prefix product and the
  statistic in a block, stores the test's outcome as a 1/0 mask in a scratch buffer, and seeds the output
  block with the prefix product plus the first 1024 columns' product with the first 32 columns zeroed; at
  k = 1, 2, 3 it adds the next 1024 columns' product; at k = 3 it adds the bias row and zeroes the entries
  whose mask exceeds 1/2.

  On the extended reals the two are the same function. The mask read back through "> 1/2" is the test's
  outcome; the four block sums with the zeroed leading columns are the tail's 4064 terms regrouped, which
  needs only that addition is associative and commutative and that 0 · y = 0 — laws that hold at every
  extended real, so the finiteness of the inputs is not used.

  The frames of both kernel programs are proved against the launch library: the body is run once per control
  case (k = 0; k = 1, 2; k = 3), what it leaves is stated by recursion on the grid point, and the region
  invariant carries the mask from a point to the next. The idealized kernel's result array is then read off
  that recursion by induction on the point; the reference's result is its generated run read at an index.
  The ideal pass rewrote nothing, so `preserves` is `True`.
-/
import proofs.«131979_j48679159333253_2_alg».proof.Defs
import proofs.«131979_j48679159333253_2_alg».proof.Proof.KernelFrame
import proofs.«131979_j48679159333253_2_alg».proof.Proof.IdealResult
import proofs.«131979_j48679159333253_2_alg».proof.Proof.KernelForm
import proofs.«131979_j48679159333253_2_alg».proof.Proof.RefValue
import proofs.«131979_j48679159333253_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer's output `G` of the argument arrays: the kernel with its own
    arrangement `K` of the same sums, equal to `G`; the reference with `G` of arguments that agree. -/
theorem algebraic : Cert.algebraic_KernelIdeal_ReferenceIdeal := by
  intro m ρ m' ρ' _ hagree
  refine ⟨fun c => Cert.EarlyExit.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.EarlyExit.K_eq_G _ _ _), (h c).2⟩)
      (Cert.KernelIdeal.Body.kernel_run m ρ)
  · refine (θ_run Cert.ReferenceIdeal.defs _ _).mono (fun _ h c => ⟨(h c).1.trans ?_, (h c).2⟩)
      (Cert.ReferenceIdeal.RefValue.ref_run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
